-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128x16x16 : Shape := ⟨4, ![1024, 128, 16, 16]⟩
abbrev S1x128x512x512 : Shape := ⟨4, ![1, 128, 512, 512]⟩
abbrev S1024x2 : Shape := ⟨2, ![1024, 2]⟩
abbrev S_ : Shape := ⟨0, ![]⟩

class Facts : Prop where
  bcast_S_S1024x128x16x16 : S_.BroadcastsInDim S1024x128x16x16 (![] : Fin 0 → Fin S1024x128x16x16.rank)
  reducesTo_S1024x128x16x16_S_d0_1_2_3 : S1024x128x16x16.ReducesTo [0, 1, 2, 3] S_
  h_S_ : 0 < S_.numel
  bcast_S_S1x128x512x512 : S_.BroadcastsInDim S1x128x512x512 (![] : Fin 0 → Fin S1x128x512x512.rank)
  reducesTo_S1x128x512x512_S_d0_1_2_3 : S1x128x512x512.ReducesTo [0, 1, 2, 3] S_

variable [Facts]

def fn {F : FTy → Type} [FloatOps F] (main_arg0 : FVec F S1024x128x16x16 .f32) (main_arg1 : FVec F S1x128x512x512 .f32) (main_arg2 : IVec S1024x2 32) : IVec S_ 1 :=
  let main_v0 : FVec F S1024x128x16x16 .f32 := Host.absf main_arg0
  let main_cst : FVec F S_ .f32 := constant S_ .f32 0x7F800000#32
  let main_v1 : FVec F S1024x128x16x16 .f32 := broadcastInDim S1024x128x16x16 ![] bcast_S_S1024x128x16x16 main_cst
  let main_v2 : IVec S1024x128x16x16 1 := cmpf .olt main_v0 main_v1
  let main_c : IVec S_ 1 := constantI S_ 1 1#1
  let main_v3 : IVec S_ 1 := (fun x v => Host.reduce IntOp.andi x v reducesTo_S1024x128x16x16_S_d0_1_2_3 h_S_) main_v2 main_c
  let main_v4 : FVec F S1x128x512x512 .f32 := Host.absf main_arg1
  let main_cst_0 : FVec F S_ .f32 := constant S_ .f32 0x7F800000#32
  let main_v5 : FVec F S1x128x512x512 .f32 := broadcastInDim S1x128x512x512 ![] bcast_S_S1x128x512x512 main_cst_0
  let main_v6 : IVec S1x128x512x512 1 := cmpf .olt main_v4 main_v5
  let main_c_1 : IVec S_ 1 := constantI S_ 1 1#1
  let main_v7 : IVec S_ 1 := (fun x v => Host.reduce IntOp.andi x v reducesTo_S1x128x512x512_S_d0_1_2_3 h_S_) main_v6 main_c_1
  let main_v8 : IVec S_ 1 := andi main_v3 main_v7
  main_v8
-- ==== Kernel.lean ====
abbrev S1024x128x16x16 : Shape := ⟨4, ![1024, 128, 16, 16]⟩
abbrev S1x128x512x512 : Shape := ⟨4, ![1, 128, 512, 512]⟩
abbrev S1024x2 : Shape := ⟨2, ![1024, 2]⟩
abbrev S1024x1 : Shape := ⟨2, ![1024, 1]⟩
abbrev S1024 : Shape := ⟨1, ![1024]⟩
abbrev S_ : Shape := ⟨0, ![]⟩
abbrev S1024x1x1 : Shape := ⟨3, ![1024, 1, 1]⟩
abbrev S16 : Shape := ⟨1, ![16]⟩
abbrev S1x16x1 : Shape := ⟨3, ![1, 16, 1]⟩
abbrev S1024x16x1 : Shape := ⟨3, ![1024, 16, 1]⟩
abbrev S1x1x16 : Shape := ⟨3, ![1, 1, 16]⟩
abbrev S1024x1x16 : Shape := ⟨3, ![1024, 1, 16]⟩
abbrev S1024x16x16 : Shape := ⟨3, ![1024, 16, 16]⟩
abbrev S262144 : Shape := ⟨1, ![262144]⟩
abbrev S1024x16x16x128 : Shape := ⟨4, ![1024, 16, 16, 128]⟩
abbrev S262144x128 : Shape := ⟨2, ![262144, 128]⟩
abbrev S262144x1 : Shape := ⟨2, ![262144, 1]⟩
abbrev S128x512x512 : Shape := ⟨3, ![128, 512, 512]⟩
abbrev S512x512x128 : Shape := ⟨3, ![512, 512, 128]⟩
abbrev S8192x128 : Shape := ⟨2, ![8192, 128]⟩
abbrev S8192x1 : Shape := ⟨2, ![8192, 1]⟩

abbrev nBuf : Space → Nat
  | .hbm => 72
  | .vmem => 8
  | .smem => 0
  | _ => 0

abbrev bufTy : (tb : Table) → Fin (tcTables nBuf tb) → BufTy
  | .hbm, ⟨0, _⟩ => ⟨S1024x128x16x16, .f32⟩
  | .hbm, ⟨1, _⟩ => ⟨S1x128x512x512, .f32⟩
  | .hbm, ⟨2, _⟩ => ⟨S1024x2, .i32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024x1x1, .i32⟩
  | .hbm, ⟨20, _⟩ => ⟨S16, .i32⟩
  | .hbm, ⟨21, _⟩ => ⟨S1x16x1, .i32⟩
  | .hbm, ⟨22, _⟩ => ⟨S1024x16x1, .i32⟩
  | .hbm, ⟨23, _⟩ => ⟨S1024x16x1, .i32⟩
  | .hbm, ⟨24, _⟩ => ⟨S1024x16x1, .i32⟩
  | .hbm, ⟨25, _⟩ => ⟨S1024x1x1, .i32⟩
  | .hbm, ⟨26, _⟩ => ⟨S16, .i32⟩
  | .hbm, ⟨27, _⟩ => ⟨S1x1x16, .i32⟩
  | .hbm, ⟨28, _⟩ => ⟨S1024x1x16, .i32⟩
  | .hbm, ⟨29, _⟩ => ⟨S1024x1x16, .i32⟩
  | .hbm, ⟨30, _⟩ => ⟨S1024x1x16, .i32⟩
  | .hbm, ⟨31, _⟩ => ⟨S_, .i32⟩
  | .hbm, ⟨32, _⟩ => ⟨S1024x16x1, .i32⟩
  | .hbm, ⟨33, _⟩ => ⟨S1024x16x1, .i32⟩
  | .hbm, ⟨34, _⟩ => ⟨S1024x16x16, .i32⟩
  | .hbm, ⟨35, _⟩ => ⟨S1024x16x16, .i32⟩
  | .hbm, ⟨36, _⟩ => ⟨S1024x16x16, .i32⟩
  | .hbm, ⟨37, _⟩ => ⟨S262144, .i32⟩
  | .hbm, ⟨38, _⟩ => ⟨S1024x16x16x128, .f32⟩
  | .hbm, ⟨39, _⟩ => ⟨S262144x128, .f32⟩
  | .hbm, ⟨40, _⟩ => ⟨S_, .f32⟩
  | .hbm, ⟨41, _⟩ => ⟨S262144x128, .f32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S262144x128, .f32⟩
  | .hbm, ⟨51, _⟩ => ⟨S_, .f32⟩
  | .hbm, ⟨52, _⟩ => ⟨S262144, .f32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S262144x1, .i32⟩
  | .hbm, ⟨61, _⟩ => ⟨S_, .f32⟩
  | .hbm, ⟨62, _⟩ => ⟨S262144, .f32⟩
  | .hbm, ⟨63, _⟩ => ⟨S262144, .f32⟩
  | .hbm, ⟨64, _⟩ => ⟨S262144x1, .f32⟩
  | .hbm, ⟨65, _⟩ => ⟨S128x512x512, .f32⟩
  | .hbm, ⟨66, _⟩ => ⟨S512x512x128, .f32⟩
  | .hbm, ⟨67, _⟩ => ⟨S262144x128, .f32⟩
  | .hbm, ⟨68, _⟩ => ⟨S262144x128, .f32⟩
  | .hbm, ⟨69, _⟩ => ⟨S512x512x128, .f32⟩
  | .hbm, ⟨70, _⟩ => ⟨S128x512x512, .f32⟩
  | .hbm, ⟨71, _⟩ => ⟨S1x128x512x512, .f32⟩
  | .local _ .vmem, ⟨0, _⟩ => ⟨S8192x128, .f32⟩
  | .local _ .vmem, ⟨1, _⟩ => ⟨S8192x128, .f32⟩
  | .local _ .vmem, ⟨2, _⟩ => ⟨S8192x1, .f32⟩
  | .local _ .vmem, ⟨3, _⟩ => ⟨S8192x1, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S8192x128, .f32⟩
  | _, _ => ⟨S1024x128x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_c_4 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S1024x2_S1024x1_0_0 : S1024x2.Slices ![0, 0] S1024x1
  shapeCasts_S1024x1_S1024 : S1024x1.ShapeCasts S1024
  bcast_S_S1024 : S_.BroadcastsInDim S1024 (![] : Fin 0 → Fin S1024.rank)
  slices_S1024x2_S1024x1_0_1 : S1024x2.Slices ![0, 1] S1024x1
  bcast_S1024_S1024x1x1_0 : S1024.BroadcastsInDim S1024x1x1 (![0] : Fin 1 → Fin S1024x1x1.rank)
  bcast_S16_S1x16x1_1 : S16.BroadcastsInDim S1x16x1 (![1] : Fin 1 → Fin S1x16x1.rank)
  bcast_S1024x1x1_S1024x16x1_0_1_2 : S1024x1x1.BroadcastsInDim S1024x16x1 (![0, 1, 2] : Fin 3 → Fin S1024x16x1.rank)
  bcast_S1x16x1_S1024x16x1_0_1_2 : S1x16x1.BroadcastsInDim S1024x16x1 (![0, 1, 2] : Fin 3 → Fin S1024x16x1.rank)
  bcast_S16_S1x1x16_2 : S16.BroadcastsInDim S1x1x16 (![2] : Fin 1 → Fin S1x1x16.rank)
  bcast_S1024x1x1_S1024x1x16_0_1_2 : S1024x1x1.BroadcastsInDim S1024x1x16 (![0, 1, 2] : Fin 3 → Fin S1024x1x16.rank)
  bcast_S1x1x16_S1024x1x16_0_1_2 : S1x1x16.BroadcastsInDim S1024x1x16 (![0, 1, 2] : Fin 3 → Fin S1024x1x16.rank)
  bcast_S_S1024x16x1 : S_.BroadcastsInDim S1024x16x1 (![] : Fin 0 → Fin S1024x16x1.rank)
  bcast_S1024x16x1_S1024x16x16_0_1_2 : S1024x16x1.BroadcastsInDim S1024x16x16 (![0, 1, 2] : Fin 3 → Fin S1024x16x16.rank)
  bcast_S1024x1x16_S1024x16x16_0_1_2 : S1024x1x16.BroadcastsInDim S1024x16x16 (![0, 1, 2] : Fin 3 → Fin S1024x16x16.rank)
  shapeCasts_S1024x16x16_S262144 : S1024x16x16.ShapeCasts S262144
  transposes_S1024x128x16x16_S1024x16x16x128_0_2_3_1 : S1024x128x16x16.Transposes [0, 2, 3, 1] S1024x16x16x128
  shapeCasts_S1024x16x16x128_S262144x128 : S1024x16x16x128.ShapeCasts S262144x128
  bcast_S_S262144x128 : S_.BroadcastsInDim S262144x128 (![] : Fin 0 → Fin S262144x128.rank)
  bcast_S_S262144 : S_.BroadcastsInDim S262144 (![] : Fin 0 → Fin S262144.rank)
  bcast_S262144_S262144x1_0 : S262144.BroadcastsInDim S262144x1 (![0] : Fin 1 → Fin S262144x1.rank)
  shapeCasts_S262144_S262144x1 : S262144.ShapeCasts S262144x1
  shapeCasts_S1x128x512x512_S128x512x512 : S1x128x512x512.ShapeCasts S128x512x512
  transposes_S128x512x512_S512x512x128_1_2_0 : S128x512x512.Transposes [1, 2, 0] S512x512x128
  shapeCasts_S512x512x128_S262144x128 : S512x512x128.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  shapeCasts_S262144x128_S512x512x128 : S262144x128.ShapeCasts S512x512x128
  transposes_S512x512x128_S128x512x512_2_0_1 : S512x512x128.Transposes [2, 0, 1] S128x512x512
  shapeCasts_S128x512x512_S1x128x512x512 : S128x512x512.ShapeCasts S1x128x512x512
  scatter_S262144x128_S262144x1_S262144x128_1_0_0_1_wf : ScatterDims.WF S262144x128 S262144x1 S262144x128 [1] [0] [0] 1
  scatter_S262144_S262144x1_S262144_n_0_0_1_wf : ScatterDims.WF S262144 S262144x1 S262144 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x1.size a ≤ S262144x1.size a
  hwx0_1 : ∀ i : grid0.Coords, EltTy.bits .f32 = 32 ∨ (Rect.block (s := S262144x1) S8192x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

def scatter_S262144x128_S262144x1_S262144x128_1_0_0_1 : ScatterDims S262144x128 S262144x1 S262144x128 where
  updateWindowDims := [1]
  insertedWindowDims := [0]
  scatterDimsToOperandDims := [0]
  indexVectorDim := 1
  wf := scatter_S262144x128_S262144x1_S262144x128_1_0_0_1_wf
def scatter_S262144_S262144x1_S262144_n_0_0_1 : ScatterDims S262144 S262144x1 S262144 where
  updateWindowDims := []
  insertedWindowDims := [0]
  scatterDimsToOperandDims := [0]
  indexVectorDim := 1
  wf := scatter_S262144_S262144x1_S262144_n_0_0_1_wf

abbrev win0_0 : Pipeline.Window sig grid0 :=
  Pipeline.Window.ofSpec (Memref.whole main_v39) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v49) S8192x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v52) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x128x16x16 : Shape := ⟨4, ![1024, 128, 16, 16]⟩
abbrev S1x128x512x512 : Shape := ⟨4, ![1, 128, 512, 512]⟩
abbrev S1024x2 : Shape := ⟨2, ![1024, 2]⟩
abbrev S1024x1 : Shape := ⟨2, ![1024, 1]⟩
abbrev S1024 : Shape := ⟨1, ![1024]⟩
abbrev S_ : Shape := ⟨0, ![]⟩
abbrev S1024x1x1 : Shape := ⟨3, ![1024, 1, 1]⟩
abbrev S16 : Shape := ⟨1, ![16]⟩
abbrev S1x16x1 : Shape := ⟨3, ![1, 16, 1]⟩
abbrev S1024x16x1 : Shape := ⟨3, ![1024, 16, 1]⟩
abbrev S1x1x16 : Shape := ⟨3, ![1, 1, 16]⟩
abbrev S1024x1x16 : Shape := ⟨3, ![1024, 1, 16]⟩
abbrev S1024x16x16 : Shape := ⟨3, ![1024, 16, 16]⟩
abbrev S262144 : Shape := ⟨1, ![262144]⟩
abbrev S128x1024x16x16 : Shape := ⟨4, ![128, 1024, 16, 16]⟩
abbrev S128x262144 : Shape := ⟨2, ![128, 262144]⟩
abbrev S262144x1 : Shape := ⟨2, ![262144, 1]⟩
abbrev S1x262144 : Shape := ⟨2, ![1, 262144]⟩

abbrev nBuf : Space → Nat
  | .hbm => 77
  | .vmem => 0
  | .smem => 0
  | _ => 0

abbrev bufTy : (tb : Table) → Fin (tcTables nBuf tb) → BufTy
  | .hbm, ⟨0, _⟩ => ⟨S1024x128x16x16, .f32⟩
  | .hbm, ⟨1, _⟩ => ⟨S1x128x512x512, .f32⟩
  | .hbm, ⟨2, _⟩ => ⟨S1024x2, .i32⟩
  | .hbm, ⟨3, _⟩ => ⟨S1024x1, .i32⟩
  | .hbm, ⟨4, _⟩ => ⟨S1024, .i32⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024x1x1, .i32⟩
  | .hbm, ⟨20, _⟩ => ⟨S16, .i32⟩
  | .hbm, ⟨21, _⟩ => ⟨S1x16x1, .i32⟩
  | .hbm, ⟨22, _⟩ => ⟨S1024x16x1, .i32⟩
  | .hbm, ⟨23, _⟩ => ⟨S1024x16x1, .i32⟩
  | .hbm, ⟨24, _⟩ => ⟨S1024x16x1, .i32⟩
  | .hbm, ⟨25, _⟩ => ⟨S1024x1x1, .i32⟩
  | .hbm, ⟨26, _⟩ => ⟨S16, .i32⟩
  | .hbm, ⟨27, _⟩ => ⟨S1x1x16, .i32⟩
  | .hbm, ⟨28, _⟩ => ⟨S1024x1x16, .i32⟩
  | .hbm, ⟨29, _⟩ => ⟨S1024x1x16, .i32⟩
  | .hbm, ⟨30, _⟩ => ⟨S1024x1x16, .i32⟩
  | .hbm, ⟨31, _⟩ => ⟨S_, .i32⟩
  | .hbm, ⟨32, _⟩ => ⟨S1024x16x1, .i32⟩
  | .hbm, ⟨33, _⟩ => ⟨S1024x16x1, .i32⟩
  | .hbm, ⟨34, _⟩ => ⟨S1024x16x16, .i32⟩
  | .hbm, ⟨35, _⟩ => ⟨S1024x16x16, .i32⟩
  | .hbm, ⟨36, _⟩ => ⟨S1024x16x16, .i32⟩
  | .hbm, ⟨37, _⟩ => ⟨S262144, .i32⟩
  | .hbm, ⟨38, _⟩ => ⟨S128x1024x16x16, .f32⟩
  | .hbm, ⟨39, _⟩ => ⟨S128x262144, .f32⟩
  | .hbm, ⟨40, _⟩ => ⟨S_, .f32⟩
  | .hbm, ⟨41, _⟩ => ⟨S128x262144, .f32⟩
  | .hbm, ⟨42, _⟩ => ⟨S_, .i32⟩
  | .hbm, ⟨43, _⟩ => ⟨S262144, .i32⟩
  | .hbm, ⟨44, _⟩ => ⟨S262144, .i1⟩
  | .hbm, ⟨45, _⟩ => ⟨S_, .i32⟩
  | .hbm, ⟨46, _⟩ => ⟨S262144, .i32⟩
  | .hbm, ⟨47, _⟩ => ⟨S262144, .i32⟩
  | .hbm, ⟨48, _⟩ => ⟨S262144, .i32⟩
  | .hbm, ⟨49, _⟩ => ⟨S262144x1, .i32⟩
  | .hbm, ⟨50, _⟩ => ⟨S128x262144, .f32⟩
  | .hbm, ⟨51, _⟩ => ⟨S_, .f32⟩
  | .hbm, ⟨52, _⟩ => ⟨S262144, .f32⟩
  | .hbm, ⟨53, _⟩ => ⟨S_, .i32⟩
  | .hbm, ⟨54, _⟩ => ⟨S262144, .i32⟩
  | .hbm, ⟨55, _⟩ => ⟨S262144, .i1⟩
  | .hbm, ⟨56, _⟩ => ⟨S_, .i32⟩
  | .hbm, ⟨57, _⟩ => ⟨S262144, .i32⟩
  | .hbm, ⟨58, _⟩ => ⟨S262144, .i32⟩
  | .hbm, ⟨59, _⟩ => ⟨S262144, .i32⟩
  | .hbm, ⟨60, _⟩ => ⟨S262144x1, .i32⟩
  | .hbm, ⟨61, _⟩ => ⟨S_, .f32⟩
  | .hbm, ⟨62, _⟩ => ⟨S262144, .f32⟩
  | .hbm, ⟨63, _⟩ => ⟨S262144, .f32⟩
  | .hbm, ⟨64, _⟩ => ⟨S_, .f32⟩
  | .hbm, ⟨65, _⟩ => ⟨S262144, .f32⟩
  | .hbm, ⟨66, _⟩ => ⟨S262144, .f32⟩
  | .hbm, ⟨67, _⟩ => ⟨S1x262144, .f32⟩
  | .hbm, ⟨68, _⟩ => ⟨S128x262144, .f32⟩
  | .hbm, ⟨69, _⟩ => ⟨S128x262144, .f32⟩
  | .hbm, ⟨70, _⟩ => ⟨S128x262144, .f32⟩
  | .hbm, ⟨71, _⟩ => ⟨S_, .f32⟩
  | .hbm, ⟨72, _⟩ => ⟨S262144, .f32⟩
  | .hbm, ⟨73, _⟩ => ⟨S262144, .i1⟩
  | .hbm, ⟨74, _⟩ => ⟨S128x262144, .i1⟩
  | .hbm, ⟨75, _⟩ => ⟨S128x262144, .f32⟩
  | .hbm, ⟨76, _⟩ => ⟨S1x128x512x512, .f32⟩
  | _, _ => ⟨S1024x128x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst : Ref sig .tc := ⟨.hbm, 40, rfl⟩
abbrev main_v32 : Ref sig .tc := ⟨.hbm, 41, rfl⟩
abbrev main_c_4 : Ref sig .tc := ⟨.hbm, 42, rfl⟩
abbrev main_v33 : Ref sig .tc := ⟨.hbm, 43, rfl⟩
abbrev main_v34 : Ref sig .tc := ⟨.hbm, 44, rfl⟩
abbrev main_c_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_v56 : Ref sig .tc := ⟨.hbm, 73, rfl⟩
abbrev main_call0_v0 : Ref sig .tc := ⟨.hbm, 74, rfl⟩
abbrev main_v57 : Ref sig .tc := ⟨.hbm, 75, rfl⟩
abbrev main_v58 : Ref sig .tc := ⟨.hbm, 76, rfl⟩

abbrev nD : Nat := 1
abbrev τ : Topo := Topo.v7x

variable {F : FTy → Type} [FloatOps F]

class Facts₀ : Prop where
  slices_S1024x2_S1024x1_0_0 : S1024x2.Slices ![0, 0] S1024x1
  shapeCasts_S1024x1_S1024 : S1024x1.ShapeCasts S1024
  bcast_S_S1024 : S_.BroadcastsInDim S1024 (![] : Fin 0 → Fin S1024.rank)
  slices_S1024x2_S1024x1_0_1 : S1024x2.Slices ![0, 1] S1024x1
  bcast_S1024_S1024x1x1_0 : S1024.BroadcastsInDim S1024x1x1 (![0] : Fin 1 → Fin S1024x1x1.rank)
  bcast_S16_S1x16x1_1 : S16.BroadcastsInDim S1x16x1 (![1] : Fin 1 → Fin S1x16x1.rank)
  bcast_S1024x1x1_S1024x16x1_0_1_2 : S1024x1x1.BroadcastsInDim S1024x16x1 (![0, 1, 2] : Fin 3 → Fin S1024x16x1.rank)
  bcast_S1x16x1_S1024x16x1_0_1_2 : S1x16x1.BroadcastsInDim S1024x16x1 (![0, 1, 2] : Fin 3 → Fin S1024x16x1.rank)
  bcast_S16_S1x1x16_2 : S16.BroadcastsInDim S1x1x16 (![2] : Fin 1 → Fin S1x1x16.rank)
  bcast_S1024x1x1_S1024x1x16_0_1_2 : S1024x1x1.BroadcastsInDim S1024x1x16 (![0, 1, 2] : Fin 3 → Fin S1024x1x16.rank)
  bcast_S1x1x16_S1024x1x16_0_1_2 : S1x1x16.BroadcastsInDim S1024x1x16 (![0, 1, 2] : Fin 3 → Fin S1024x1x16.rank)
  bcast_S_S1024x16x1 : S_.BroadcastsInDim S1024x16x1 (![] : Fin 0 → Fin S1024x16x1.rank)
  bcast_S1024x16x1_S1024x16x16_0_1_2 : S1024x16x1.BroadcastsInDim S1024x16x16 (![0, 1, 2] : Fin 3 → Fin S1024x16x16.rank)
  bcast_S1024x1x16_S1024x16x16_0_1_2 : S1024x1x16.BroadcastsInDim S1024x16x16 (![0, 1, 2] : Fin 3 → Fin S1024x16x16.rank)
  shapeCasts_S1024x16x16_S262144 : S1024x16x16.ShapeCasts S262144
  transposes_S1024x128x16x16_S128x1024x16x16_1_0_2_3 : S1024x128x16x16.Transposes [1, 0, 2, 3] S128x1024x16x16
  shapeCasts_S128x1024x16x16_S128x262144 : S128x1024x16x16.ShapeCasts S128x262144
  bcast_S_S128x262144 : S_.BroadcastsInDim S128x262144 (![] : Fin 0 → Fin S128x262144.rank)
  bcast_S_S262144 : S_.BroadcastsInDim S262144 (![] : Fin 0 → Fin S262144.rank)
  bcast_S262144_S262144x1_0 : S262144.BroadcastsInDim S262144x1 (![0] : Fin 1 → Fin S262144x1.rank)
  bcast_S262144_S1x262144_1 : S262144.BroadcastsInDim S1x262144 (![1] : Fin 1 → Fin S1x262144.rank)
  bcast_S1x262144_S128x262144_0_1 : S1x262144.BroadcastsInDim S128x262144 (![0, 1] : Fin 2 → Fin S128x262144.rank)
  shapeCasts_S1x128x512x512_S128x262144 : S1x128x512x512.ShapeCasts S128x262144
  bcast_S262144_S128x262144_1 : S262144.BroadcastsInDim S128x262144 (![1] : Fin 1 → Fin S128x262144.rank)
  shapeCasts_S128x262144_S1x128x512x512 : S128x262144.ShapeCasts S1x128x512x512
  scatter_S128x262144_S262144x1_S128x262144_0_1_1_1_wf : ScatterDims.WF S128x262144 S262144x1 S128x262144 [0] [1] [1] 1
  scatter_S262144_S262144x1_S262144_n_0_0_1_wf : ScatterDims.WF S262144 S262144x1 S262144 [] [0] [0] 1

variable [Facts₀]

def scatter_S128x262144_S262144x1_S128x262144_0_1_1_1 : ScatterDims S128x262144 S262144x1 S128x262144 where
  updateWindowDims := [0]
  insertedWindowDims := [1]
  scatterDimsToOperandDims := [1]
  indexVectorDim := 1
  wf := scatter_S128x262144_S262144x1_S128x262144_0_1_1_1_wf
def scatter_S262144_S262144x1_S262144_n_0_0_1 : ScatterDims S262144 S262144x1 S262144 where
  updateWindowDims := []
  insertedWindowDims := [0]
  scatterDimsToOperandDims := [0]
  indexVectorDim := 1
  wf := scatter_S262144_S262144x1_S262144_n_0_0_1_wf

class Facts : Prop extends Facts₀ where

variable [Facts]
-- ==== Proof.Stages.lean ====
/-
  The values the two programs compute on the host, as functions of the argument arrays, at any float instance.

  Both programs compute, from the block corners `active_indices` [1024, 2], the flat pixel index of every pixel of
  every block, `flat (n, i, j) = (sy n + i) * 512 + (sx n + j)` in 32-bit words, laid out as [262144], a negative index
  moved up by 262144 (`norm`, an [262144, 1] array of scatter indices), and the per-pixel overlap count: ones
  accumulated at those indices into zeros (`counts`, [262144]). They differ in the layout of the sums of block
  values: the reference accumulates the blocks as COLUMNS of a [128, 262144] array (`colSums`), the kernel as ROWS of a
  [262144, 128] array (`rowSums`).
  The reference then divides the sums by max(count, 1), selects that average where the count is positive and the
  original image [1, 128, 512, 512] read as [128, 262144] elsewhere, and reads the result as [1, 128, 512, 512]
  (`refOut`). The kernel's blend works on rows: the count as a [262144, 1] column (`countCol`), the original image
  moved channel-last and read as [262144, 128] (`baseRows`); and what the blend leaves is read as [512, 512, 128], moved
  channel-first and read as [1, 128, 512, 512] (`unrows`). The blend itself, on arrays of R rows, is `blendOn`:
      out (r, c) = if count r > 0 then sums (r, c) / max (count r) 1 else image (r, c),
  and the kernel program's result is `kerOut`.
-/
import proofs.«175001_j41420664602706_2_alg».proof.Proof.Gen.KernelIdeal
import proofs.«175001_j41420664602706_2_alg».proof.Proof.Gen.ReferenceIdeal
import Idealize.ShloMosaic.Lib.ValueIdx

noncomputable section

namespace Cert.Stages

open Idealize.ShloMosaic Idealize.SL.Sem

variable {F : FTy → Type} [FloatOps F]

section Reference
open Cert.ReferenceIdeal Cert.ReferenceIdeal.Gen

/-- The flat pixel index of every pixel of every block, (sy + i) * 512 + (sx + j) in 32-bit words, as [262144]. -/
def flat (x2 : IVec S1024x2 32) : IVec S262144 32 :=
  shapeCast _ (addi (broadcastInDim S1024x16x16 ![0, 1, 2] bcast_S1024x16x1_S1024x16x16_0_1_2 (muli (addi (broadcastInDim S1024x16x1 ![0, 1, 2] bcast_S1024x1x1_S1024x16x1_0_1_2 (broadcastInDim S1024x1x1 ![0] bcast_S1024_S1024x1x1_0 (addi (muli (shapeCast _ (extractStridedSlice S1024x1 ![0, 0] x2 slices_S1024x2_S1024x1_0_0) shapeCasts_S1024x1_S1024) (broadcastInDim S1024 ![] bcast_S_S1024 (constantI S_ 32 1#32))) (broadcastInDim S1024 ![] bcast_S_S1024 (constantI S_ 32 0#32))))) (broadcastInDim S1024x16x1 ![0, 1, 2] bcast_S1x16x1_S1024x16x1_0_1_2 (broadcastInDim S1x16x1 ![1] bcast_S16_S1x16x1_1 (iotaInDim S16 32 0)))) (broadcastInDim S1024x16x1 ![] bcast_S_S1024x16x1 (constantI S_ 32 512#32)))) (broadcastInDim S1024x16x16 ![0, 1, 2] bcast_S1024x1x16_S1024x16x16_0_1_2 (addi (broadcastInDim S1024x1x16 ![0, 1, 2] bcast_S1024x1x1_S1024x1x16_0_1_2 (broadcastInDim S1024x1x1 ![0] bcast_S1024_S1024x1x1_0 (addi (muli (shapeCast _ (extractStridedSlice S1024x1 ![0, 1] x2 slices_S1024x2_S1024x1_0_1) shapeCasts_S1024x1_S1024) (broadcastInDim S1024 ![] bcast_S_S1024 (constantI S_ 32 1#32))) (broadcastInDim S1024 ![] bcast_S_S1024 (constantI S_ 32 0#32))))) (broadcastInDim S1024x1x16 ![0, 1, 2] bcast_S1x1x16_S1024x1x16_0_1_2 (broadcastInDim S1x1x16 ![2] bcast_S16_S1x1x16_2 (iotaInDim S16 32 0)))))) shapeCasts_S1024x16x16_S262144

/-- The scatter indices: a negative flat index moved up by 262144, as an [262144, 1] array. -/
def norm (x2 : IVec S1024x2 32) : IVec S262144x1 32 :=
  broadcastInDim S262144x1 ![0] bcast_S262144_S262144x1_0
    (select (cmpi .slt (flat x2) (broadcastInDim S262144 ![] bcast_S_S262144 (constantI S_ 32 0#32)))
      (addi (flat x2) (broadcastInDim S262144 ![] bcast_S_S262144 (constantI S_ 32 262144#32))) (flat x2))

/-- The overlap count of every pixel: ones accumulated at the scatter indices into zeros. -/
def counts (x2 : IVec S1024x2 32) : FVec F S262144 .f32 :=
  Host.scatterAdd (F := F) scatter_S262144_S262144x1_S262144_n_0_0_1
    (broadcastInDim S262144 ![] bcast_S_S262144 (constant S_ .f32 0x00000000#32)) (norm x2)
    (broadcastInDim S262144 ![] bcast_S_S262144 (constant S_ .f32 0x3F800000#32))

/-- The block values as columns: [1024, 128, 16, 16] moved to [128, 1024, 16, 16] and read as [128, 262144]. -/
def colVals (x0 : FVec F S1024x128x16x16 .f32) : FVec F S128x262144 .f32 :=
  shapeCast _ (transpose S128x1024x16x16 [1, 0, 2, 3] x0 transposes_S1024x128x16x16_S128x1024x16x16_1_0_2_3)
    shapeCasts_S128x1024x16x16_S128x262144

/-- The sums of block values, accumulated as columns of a [128, 262144] array of zeros. -/
def colSums (x0 : FVec F S1024x128x16x16 .f32) (x2 : IVec S1024x2 32) : FVec F S128x262144 .f32 :=
  Host.scatterAdd (F := F) scatter_S128x262144_S262144x1_S128x262144_0_1_1_1
    (broadcastInDim S128x262144 ![] bcast_S_S128x262144 (constant S_ .f32 0x00000000#32)) (norm x2) (colVals x0)

/-- The reference's blend on [128, 262144]: the average where the count is positive, the original image elsewhere. -/
def refBlend (x0 : FVec F S1024x128x16x16 .f32) (x1 : FVec F S1x128x512x512 .f32) (x2 : IVec S1024x2 32) :
    FVec F S128x262144 .f32 :=
  select (broadcastInDim S128x262144 ![1] bcast_S262144_S128x262144_1
      (cmpf .ogt (counts (F := F) x2) (broadcastInDim S262144 ![] bcast_S_S262144 (constant S_ .f32 0x00000000#32))))
    (Host.divf (colSums x0 x2) (broadcastInDim S128x262144 ![0, 1] bcast_S1x262144_S128x262144_0_1
      (broadcastInDim S1x262144 ![1] bcast_S262144_S1x262144_1
        (maximumf (counts (F := F) x2) (broadcastInDim S262144 ![] bcast_S_S262144 (constant S_ .f32 0x3F800000#32))))))
    (shapeCast _ x1 shapeCasts_S1x128x512x512_S128x262144)

/-- The reference's result. -/
def refOut (x0 : FVec F S1024x128x16x16 .f32) (x1 : FVec F S1x128x512x512 .f32) (x2 : IVec S1024x2 32) :
    FVec F S1x128x512x512 .f32 :=
  shapeCast _ (refBlend x0 x1 x2) shapeCasts_S128x262144_S1x128x512x512

end Reference

section Kernel
open Cert.KernelIdeal Cert.KernelIdeal.Gen

/-- The block values as rows: [1024, 128, 16, 16] moved to [1024, 16, 16, 128] and read as [262144, 128]. -/
def rowVals (x0 : FVec F S1024x128x16x16 .f32) : FVec F S262144x128 .f32 :=
  shapeCast _ (transpose S1024x16x16x128 [0, 2, 3, 1] x0 transposes_S1024x128x16x16_S1024x16x16x128_0_2_3_1)
    shapeCasts_S1024x16x16x128_S262144x128

/-- The sums of block values, accumulated as rows of a [262144, 128] array of zeros. -/
def rowSums (x0 : FVec F S1024x128x16x16 .f32) (x2 : IVec S1024x2 32) : FVec F S262144x128 .f32 :=
  Host.scatterAdd (F := F) scatter_S262144x128_S262144x1_S262144x128_1_0_0_1
    (broadcastInDim S262144x128 ![] bcast_S_S262144x128 (constant S_ .f32 0x00000000#32)) (norm x2) (rowVals x0)

/-- The overlap count as a column [262144, 1]. -/
def countCol (x2 : IVec S1024x2 32) : FVec F S262144x1 .f32 :=
  shapeCast _ (counts (F := F) x2) shapeCasts_S262144_S262144x1

/-- The original image channel-last, as rows [262144, 128]. -/
def baseRows (x1 : FVec F S1x128x512x512 .f32) : FVec F S262144x128 .f32 :=
  shapeCast _ (transpose S512x512x128 [1, 2, 0] (shapeCast _ x1 shapeCasts_S1x128x512x512_S128x512x512)
    transposes_S128x512x512_S512x512x128_1_2_0) shapeCasts_S512x512x128_S262144x128

/-- Rows [262144, 128] read back as an image [1, 128, 512, 512]. -/
def unrows (y : FVec F S262144x128 .f32) : FVec F S1x128x512x512 .f32 :=
  shapeCast _ (transpose S128x512x512 [2, 0, 1] (shapeCast _ y shapeCasts_S262144x128_S512x512x128)
    transposes_S512x512x128_S128x512x512_2_0_1) shapeCasts_S128x512x512_S1x128x512x512

/-- The blend on arrays of R rows: the average where the row's count is positive, the image elsewhere. -/
abbrev blendOn (R : Nat) (a0 : (⟨2, ![R, 128]⟩ : Shape).Idx → Elt F .f32) (a1 : (⟨2, ![R, 1]⟩ : Shape).Idx → Elt F .f32)
    (a2 : (⟨2, ![R, 128]⟩ : Shape).Idx → Elt F .f32) : (⟨2, ![R, 128]⟩ : Shape).Idx → Elt F .f32 := fun i =>
  Scalar.select (FloatOps.cmpf .ogt (a1 (ValueIdx.ix2 (i 0) (0 : Fin 1))) (Scalar.ofBits .f32 0x00000000#32))
    (FloatOps.divf (a0 i) (FloatOps.maximumf (a1 (ValueIdx.ix2 (i 0) (0 : Fin 1))) (Scalar.ofBits .f32 0x3F800000#32))) (a2 i)

/-- The kernel program's result as a function of the argument arrays. -/
def kerOut (x0 : FVec F S1024x128x16x16 .f32) (x1 : FVec F S1x128x512x512 .f32) (x2 : IVec S1024x2 32) :
    FVec F S1x128x512x512 .f32 :=
  unrows (blendOn 262144 (rowSums x0 x2) (countCol (F := F) x2) (baseRows x1))

end Kernel

end Cert.Stages

end
-- ==== Proof.RefRun.lean ====
/-
  The reference program's run. Its @main is a straight line of 74 host operations (the outlined select of `jnp.where`
  written in its call's place); every weakly fair execution terminates, nothing faulting, with the result buffer at the
  operations' composed value of the argument arrays — the value `Stages.refOut` names — and the arguments unchanged.
-/
import proofs.«175001_j41420664602706_2_alg».proof.Proof.Stages
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 74 operations, in order. -/
abbrev ops : List (HloOp τ sig (Elt F)) :=
  [ unary main_arg2 main_v0 ((extractStridedSlice S1024x1 ![0, 0] · slices_S1024x2_S1024x1_0_0) : (⟨S1024x2, .i32⟩ : BufTy).Contents (Elt F) → (⟨S1024x1, .i32⟩ : BufTy).Contents (Elt F)),
    reshape main_v0 main_v1 rfl shapeCasts_S1024x1_S1024,
    nullary main_c (constantI S_ 32 1#32),
    unary main_c main_v2 (broadcastInDim S1024 ![] bcast_S_S1024 : (⟨S_, .i32⟩ : BufTy).Contents (Elt F) → (⟨S1024, .i32⟩ : BufTy).Contents (Elt F)),
    binary main_v1 main_v2 main_v3 (muli : (⟨S1024, .i32⟩ : BufTy).Contents (Elt F) → (⟨S1024, .i32⟩ : BufTy).Contents (Elt F) → (⟨S1024, .i32⟩ : BufTy).Contents (Elt F)),
    nullary main_c_0 (constantI S_ 32 0#32),
    unary main_c_0 main_v4 (broadcastInDim S1024 ![] bcast_S_S1024 : (⟨S_, .i32⟩ : BufTy).Contents (Elt F) → (⟨S1024, .i32⟩ : BufTy).Contents (Elt F)),
    binary main_v3 main_v4 main_v5 (addi : (⟨S1024, .i32⟩ : BufTy).Contents (Elt F) → (⟨S1024, .i32⟩ : BufTy).Contents (Elt F) → (⟨S1024, .i32⟩ : BufTy).Contents (Elt F)),
    unary main_arg2 main_v6 ((extractStridedSlice S1024x1 ![0, 1] · slices_S1024x2_S1024x1_0_1) : (⟨S1024x2, .i32⟩ : BufTy).Contents (Elt F) → (⟨S1024x1, .i32⟩ : BufTy).Contents (Elt F)),
    reshape main_v6 main_v7 rfl shapeCasts_S1024x1_S1024,
    nullary main_c_1 (constantI S_ 32 1#32),
    unary main_c_1 main_v8 (broadcastInDim S1024 ![] bcast_S_S1024 : (⟨S_, .i32⟩ : BufTy).Contents (Elt F) → (⟨S1024, .i32⟩ : BufTy).Contents (Elt F)),
    binary main_v7 main_v8 main_v9 (muli : (⟨S1024, .i32⟩ : BufTy).Contents (Elt F) → (⟨S1024, .i32⟩ : BufTy).Contents (Elt F) → (⟨S1024, .i32⟩ : BufTy).Contents (Elt F)),
    nullary main_c_2 (constantI S_ 32 0#32),
    unary main_c_2 main_v10 (broadcastInDim S1024 ![] bcast_S_S1024 : (⟨S_, .i32⟩ : BufTy).Contents (Elt F) → (⟨S1024, .i32⟩ : BufTy).Contents (Elt F)),
    binary main_v9 main_v10 main_v11 (addi : (⟨S1024, .i32⟩ : BufTy).Contents (Elt F) → (⟨S1024, .i32⟩ : BufTy).Contents (Elt F) → (⟨S1024, .i32⟩ : BufTy).Contents (Elt F)),
    unary main_v5 main_v12 (broadcastInDim S1024x1x1 ![0] bcast_S1024_S1024x1x1_0 : (⟨S1024, .i32⟩ : BufTy).Contents (Elt F) → (⟨S1024x1x1, .i32⟩ : BufTy).Contents (Elt F)),
    nullary main_v13 (iotaInDim S16 32 0),
    unary main_v13 main_v14 (broadcastInDim S1x16x1 ![1] bcast_S16_S1x16x1_1 : (⟨S16, .i32⟩ : BufTy).Contents (Elt F) → (⟨S1x16x1, .i32⟩ : BufTy).Contents (Elt F)),
    unary main_v12 main_v15 (broadcastInDim S1024x16x1 ![0, 1, 2] bcast_S1024x1x1_S1024x16x1_0_1_2 : (⟨S1024x1x1, .i32⟩ : BufTy).Contents (Elt F) → (⟨S1024x16x1, .i32⟩ : BufTy).Contents (Elt F)),
    unary main_v14 main_v16 (broadcastInDim S1024x16x1 ![0, 1, 2] bcast_S1x16x1_S1024x16x1_0_1_2 : (⟨S1x16x1, .i32⟩ : BufTy).Contents (Elt F) → (⟨S1024x16x1, .i32⟩ : BufTy).Contents (Elt F)),
    binary main_v15 main_v16 main_v17 (addi : (⟨S1024x16x1, .i32⟩ : BufTy).Contents (Elt F) → (⟨S1024x16x1, .i32⟩ : BufTy).Contents (Elt F) → (⟨S1024x16x1, .i32⟩ : BufTy).Contents (Elt F)),
    unary main_v11 main_v18 (broadcastInDim S1024x1x1 ![0] bcast_S1024_S1024x1x1_0 : (⟨S1024, .i32⟩ : BufTy).Contents (Elt F) → (⟨S1024x1x1, .i32⟩ : BufTy).Contents (Elt F)),
    nullary main_v19 (iotaInDim S16 32 0),
    unary main_v19 main_v20 (broadcastInDim S1x1x16 ![2] bcast_S16_S1x1x16_2 : (⟨S16, .i32⟩ : BufTy).Contents (Elt F) → (⟨S1x1x16, .i32⟩ : BufTy).Contents (Elt F)),
    unary main_v18 main_v21 (broadcastInDim S1024x1x16 ![0, 1, 2] bcast_S1024x1x1_S1024x1x16_0_1_2 : (⟨S1024x1x1, .i32⟩ : BufTy).Contents (Elt F) → (⟨S1024x1x16, .i32⟩ : BufTy).Contents (Elt F)),
    unary main_v20 main_v22 (broadcastInDim S1024x1x16 ![0, 1, 2] bcast_S1x1x16_S1024x1x16_0_1_2 : (⟨S1x1x16, .i32⟩ : BufTy).Contents (Elt F) → (⟨S1024x1x16, .i32⟩ : BufTy).Contents (Elt F)),
    binary main_v21 main_v22 main_v23 (addi : (⟨S1024x1x16, .i32⟩ : BufTy).Contents (Elt F) → (⟨S1024x1x16, .i32⟩ : BufTy).Contents (Elt F) → (⟨S1024x1x16, .i32⟩ : BufTy).Contents (Elt F)),
    nullary main_c_3 (constantI S_ 32 512#32),
    unary main_c_3 main_v24 (broadcastInDim S1024x16x1 ![] bcast_S_S1024x16x1 : (⟨S_, .i32⟩ : BufTy).Contents (Elt F) → (⟨S1024x16x1, .i32⟩ : BufTy).Contents (Elt F)),
    binary main_v17 main_v24 main_v25 (muli : (⟨S1024x16x1, .i32⟩ : BufTy).Contents (Elt F) → (⟨S1024x16x1, .i32⟩ : BufTy).Contents (Elt F) → (⟨S1024x16x1, .i32⟩ : BufTy).Contents (Elt F)),
    unary main_v25 main_v26 (broadcastInDim S1024x16x16 ![0, 1, 2] bcast_S1024x16x1_S1024x16x16_0_1_2 : (⟨S1024x16x1, .i32⟩ : BufTy).Contents (Elt F) → (⟨S1024x16x16, .i32⟩ : BufTy).Contents (Elt F)),
    unary main_v23 main_v27 (broadcastInDim S1024x16x16 ![0, 1, 2] bcast_S1024x1x16_S1024x16x16_0_1_2 : (⟨S1024x1x16, .i32⟩ : BufTy).Contents (Elt F) → (⟨S1024x16x16, .i32⟩ : BufTy).Contents (Elt F)),
    binary main_v26 main_v27 main_v28 (addi : (⟨S1024x16x16, .i32⟩ : BufTy).Contents (Elt F) → (⟨S1024x16x16, .i32⟩ : BufTy).Contents (Elt F) → (⟨S1024x16x16, .i32⟩ : BufTy).Contents (Elt F)),
    reshape main_v28 main_v29 rfl shapeCasts_S1024x16x16_S262144,
    unary main_arg0 main_v30 ((transpose S128x1024x16x16 [1, 0, 2, 3] · transposes_S1024x128x16x16_S128x1024x16x16_1_0_2_3) : (⟨S1024x128x16x16, .f32⟩ : BufTy).Contents (Elt F) → (⟨S128x1024x16x16, .f32⟩ : BufTy).Contents (Elt F)),
    reshape main_v30 main_v31 rfl shapeCasts_S128x1024x16x16_S128x262144,
    nullary main_cst (constant S_ .f32 0x00000000#32),
    unary main_cst main_v32 (broadcastInDim S128x262144 ![] bcast_S_S128x262144 : (⟨S_, .f32⟩ : BufTy).Contents (Elt F) → (⟨S128x262144, .f32⟩ : BufTy).Contents (Elt F)),
    nullary main_c_4 (constantI S_ 32 0#32),
    unary main_c_4 main_v33 (broadcastInDim S262144 ![] bcast_S_S262144 : (⟨S_, .i32⟩ : BufTy).Contents (Elt F) → (⟨S262144, .i32⟩ : BufTy).Contents (Elt F)),
    binary main_v29 main_v33 main_v34 (cmpi .slt : (⟨S262144, .i32⟩ : BufTy).Contents (Elt F) → (⟨S262144, .i32⟩ : BufTy).Contents (Elt F) → (⟨S262144, .i1⟩ : BufTy).Contents (Elt F)),
    nullary main_c_5 (constantI S_ 32 262144#32),
    unary main_c_5 main_v35 (broadcastInDim S262144 ![] bcast_S_S262144 : (⟨S_, .i32⟩ : BufTy).Contents (Elt F) → (⟨S262144, .i32⟩ : BufTy).Contents (Elt F)),
    binary main_v29 main_v35 main_v36 (addi : (⟨S262144, .i32⟩ : BufTy).Contents (Elt F) → (⟨S262144, .i32⟩ : BufTy).Contents (Elt F) → (⟨S262144, .i32⟩ : BufTy).Contents (Elt F)),
    ternary main_v34 main_v36 main_v29 main_v37 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v37 main_v38 (broadcastInDim S262144x1 ![0] bcast_S262144_S262144x1_0 : (⟨S262144, .i32⟩ : BufTy).Contents (Elt F) → (⟨S262144x1, .i32⟩ : BufTy).Contents (Elt F)),
    ternary main_v32 main_v38 main_v31 main_v39 ((fun x i u => Host.scatterAdd scatter_S128x262144_S262144x1_S128x262144_0_1_1_1 x i u) : (⟨S128x262144, .f32⟩ : BufTy).Contents (Elt F) → (⟨S262144x1, .i32⟩ : BufTy).Contents (Elt F) → (⟨S128x262144, .f32⟩ : BufTy).Contents (Elt F) → (⟨S128x262144, .f32⟩ : BufTy).Contents (Elt F)),
    nullary main_cst_6 (constant S_ .f32 0x00000000#32),
    unary main_cst_6 main_v40 (broadcastInDim S262144 ![] bcast_S_S262144 : (⟨S_, .f32⟩ : BufTy).Contents (Elt F) → (⟨S262144, .f32⟩ : BufTy).Contents (Elt F)),
    nullary main_c_7 (constantI S_ 32 0#32),
    unary main_c_7 main_v41 (broadcastInDim S262144 ![] bcast_S_S262144 : (⟨S_, .i32⟩ : BufTy).Contents (Elt F) → (⟨S262144, .i32⟩ : BufTy).Contents (Elt F)),
    binary main_v29 main_v41 main_v42 (cmpi .slt : (⟨S262144, .i32⟩ : BufTy).Contents (Elt F) → (⟨S262144, .i32⟩ : BufTy).Contents (Elt F) → (⟨S262144, .i1⟩ : BufTy).Contents (Elt F)),
    nullary main_c_8 (constantI S_ 32 262144#32),
    unary main_c_8 main_v43 (broadcastInDim S262144 ![] bcast_S_S262144 : (⟨S_, .i32⟩ : BufTy).Contents (Elt F) → (⟨S262144, .i32⟩ : BufTy).Contents (Elt F)),
    binary main_v29 main_v43 main_v44 (addi : (⟨S262144, .i32⟩ : BufTy).Contents (Elt F) → (⟨S262144, .i32⟩ : BufTy).Contents (Elt F) → (⟨S262144, .i32⟩ : BufTy).Contents (Elt F)),
    ternary main_v42 main_v44 main_v29 main_v45 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    unary main_v45 main_v46 (broadcastInDim S262144x1 ![0] bcast_S262144_S262144x1_0 : (⟨S262144, .i32⟩ : BufTy).Contents (Elt F) → (⟨S262144x1, .i32⟩ : BufTy).Contents (Elt F)),
    nullary main_cst_9 (constant S_ .f32 0x3F800000#32),
    unary main_cst_9 main_v47 (broadcastInDim S262144 ![] bcast_S_S262144 : (⟨S_, .f32⟩ : BufTy).Contents (Elt F) → (⟨S262144, .f32⟩ : BufTy).Contents (Elt F)),
    ternary main_v40 main_v46 main_v47 main_v48 ((fun x i u => Host.scatterAdd scatter_S262144_S262144x1_S262144_n_0_0_1 x i u) : (⟨S262144, .f32⟩ : BufTy).Contents (Elt F) → (⟨S262144x1, .i32⟩ : BufTy).Contents (Elt F) → (⟨S262144, .f32⟩ : BufTy).Contents (Elt F) → (⟨S262144, .f32⟩ : BufTy).Contents (Elt F)),
    nullary main_cst_10 (constant S_ .f32 0x3F800000#32),
    unary main_cst_10 main_v49 (broadcastInDim S262144 ![] bcast_S_S262144 : (⟨S_, .f32⟩ : BufTy).Contents (Elt F) → (⟨S262144, .f32⟩ : BufTy).Contents (Elt F)),
    binary main_v48 main_v49 main_v50 (maximumf : (⟨S262144, .f32⟩ : BufTy).Contents (Elt F) → (⟨S262144, .f32⟩ : BufTy).Contents (Elt F) → (⟨S262144, .f32⟩ : BufTy).Contents (Elt F)),
    unary main_v50 main_v51 (broadcastInDim S1x262144 ![1] bcast_S262144_S1x262144_1 : (⟨S262144, .f32⟩ : BufTy).Contents (Elt F) → (⟨S1x262144, .f32⟩ : BufTy).Contents (Elt F)),
    unary main_v51 main_v52 (broadcastInDim S128x262144 ![0, 1] bcast_S1x262144_S128x262144_0_1 : (⟨S1x262144, .f32⟩ : BufTy).Contents (Elt F) → (⟨S128x262144, .f32⟩ : BufTy).Contents (Elt F)),
    binary main_v39 main_v52 main_v53 (Host.divf : (⟨S128x262144, .f32⟩ : BufTy).Contents (Elt F) → (⟨S128x262144, .f32⟩ : BufTy).Contents (Elt F) → (⟨S128x262144, .f32⟩ : BufTy).Contents (Elt F)),
    reshape main_arg1 main_v54 rfl shapeCasts_S1x128x512x512_S128x262144,
    nullary main_cst_11 (constant S_ .f32 0x00000000#32),
    unary main_cst_11 main_v55 (broadcastInDim S262144 ![] bcast_S_S262144 : (⟨S_, .f32⟩ : BufTy).Contents (Elt F) → (⟨S262144, .f32⟩ : BufTy).Contents (Elt F)),
    binary main_v48 main_v55 main_v56 (cmpf .ogt : (⟨S262144, .f32⟩ : BufTy).Contents (Elt F) → (⟨S262144, .f32⟩ : BufTy).Contents (Elt F) → (⟨S262144, .i1⟩ : BufTy).Contents (Elt F)),
    TRef.unary (TRef.of (T := ⟨S262144, .i1⟩) main_v56) (TRef.of (T := ⟨S128x262144, .i1⟩) main_call0_v0) (broadcastInDim S128x262144 ![1] bcast_S262144_S128x262144_1),
    TRef.ternary (TRef.of (T := ⟨S128x262144, .i1⟩) main_call0_v0) (TRef.of (T := ⟨S128x262144, .f32⟩) main_v53) (TRef.of (T := ⟨S128x262144, .f32⟩) main_v54) (TRef.of (T := ⟨S128x262144, .f32⟩) main_v57) select,
    reshape main_v57 main_v58 rfl shapeCasts_S128x262144_S1x128x512x512 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., unary_bufs_sub .., reshape_bufs_sub .., nullary_bufs_sub .., unary_bufs_sub .., binary_bufs_sub .., nullary_bufs_sub .., unary_bufs_sub .., binary_bufs_sub .., unary_bufs_sub .., nullary_bufs_sub .., unary_bufs_sub .., unary_bufs_sub .., unary_bufs_sub .., binary_bufs_sub .., unary_bufs_sub .., nullary_bufs_sub .., unary_bufs_sub .., unary_bufs_sub .., unary_bufs_sub .., binary_bufs_sub .., nullary_bufs_sub .., unary_bufs_sub .., binary_bufs_sub .., unary_bufs_sub .., unary_bufs_sub .., binary_bufs_sub .., reshape_bufs_sub .., unary_bufs_sub .., reshape_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., unary_bufs_sub .., binary_bufs_sub .., reshape_bufs_sub .., nullary_bufs_sub .., unary_bufs_sub .., binary_bufs_sub .., unary_bufs_sub .., ternary_bufs_sub .., reshape_bufs_sub ..⟩

set_option maxRecDepth 8192 in
set_option maxHeartbeats 29600000 in
/-- The reference runs to its composed value. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = Cert.Stages.refOut (F := F) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v58).trans (by after_results_simp <;> rfl),
      (h c main_arg0).trans (by after_results_simp <;> rfl),
      (h c main_arg1).trans (by after_results_simp <;> rfl),
      (h c main_arg2).trans (by after_results_simp <;> rfl)⟩)
    (run_seq scopedRefs_eq scopedSems_eq defs main (fun _ => ops) main_eq (fun _ => ops_sub) m ρ)

end Cert.RefRun

end
-- ==== Proof.KernelArray.lean ====
/-
  What the kernel's one region leaves in its output array, as ONE function of the three arrays it reads.

  The region runs over 32 grid points; at point t every window holds rows [8192 t, 8192 t + 8192): the sums (8192 × 128),
  the counts as a column (8192 × 1), the original image as rows (8192 × 128), and the output (8192 × 128). The body is
  pointwise in the row and the channel: with n the count of the row,
      out (r, c) = if n > 0 then sums (r, c) / max n 1 else image (r, c)
  (`blend`). The blocks of the output tile the whole [262144, 128] array, so after the last point the array is `blend` of
  the three arrays as the region finds them.
-/
import proofs.«175001_j41420664602706_2_alg».proof.Proof.Gen.KernelIdeal.Frame
import proofs.«175001_j41420664602706_2_alg».proof.Proof.Stages
import Idealize.ShloMosaic.Lib.Pipeline.Value
import Idealize.ShloMosaic.Lib.ValueIdx

set_option maxRecDepth 16384

noncomputable section

namespace Cert.KernelIdeal.Blend

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Stages (blendOn)

variable {F : FTy → Type} [FloatOps F]

/-- The body's payload is the blend of its three loaded blocks: the count column broadcast along the channels reads
    the row's count. -/
theorem pay_eq (x0 : Vec F S8192x128 .f32) (x1 : Vec F S8192x1 .f32) (x2 : Vec F S8192x128 .f32) :
    k0_pay1 x0 x1 x2 = blendOn 8192 x0 x1 x2 := by
  funext y
  unfold k0_pay1
  simp only [shapeCast_self]
  have hb : broadcastTo S8192x128 x1 broadcasts_S8192x1_S8192x128 y = x1 (ix2 (y 0) (0 : Fin 1)) :=
    broadcastTo_apply x1 broadcasts_S8192x1_S8192x128 y (ix2 (y 0) (0 : Fin 1)) (fun a => match a with
      | ⟨0, _⟩ => by show (y 0).val = if (8192 : Nat) = 1 then 0 else (y 0).val; rw [if_neg (by decide)]
      | ⟨1, _⟩ => by show (0 : Nat) = if (1 : Nat) = 1 then 0 else (y 1).val; rw [if_pos rfl])
  show Scalar.select (FloatOps.cmpf .ogt (broadcastTo S8192x128 x1 broadcasts_S8192x1_S8192x128 y) _)
    (FloatOps.divf (x0 y) (FloatOps.maximumf (broadcastTo S8192x128 x1 broadcasts_S8192x1_S8192x128 y) _)) (x2 y) = _
  rw [hb]
  rfl

/-- A block of a blend is the blend of the blocks: if the three loaded blocks read the three arrays where the output
    block's embedding `e` says (the count's column at the embedded row), the blend of the blocks is the blend of the
    arrays read through `e`. -/
theorem blend_block (A0 : S262144x128.Idx → Elt F .f32) (A1 : S262144x1.Idx → Elt F .f32) (A2 : S262144x128.Idx → Elt F .f32)
    (x0 : Vec F S8192x128 .f32) (x1 : Vec F S8192x1 .f32) (x2 : Vec F S8192x128 .f32) (e : S8192x128.Idx → S262144x128.Idx)
    (h0 : ∀ y, x0 y = A0 (e y))
    (h1 : ∀ y : S8192x128.Idx, x1 (ix2 (y 0) (0 : Fin 1)) = A1 (ix2 ((e y) 0) (0 : Fin 1)))
    (h2 : ∀ y, x2 y = A2 (e y)) :
    blendOn 8192 x0 x1 x2 = fun y => blendOn 262144 A0 A1 A2 (e y) := by
  funext y
  show Scalar.select (FloatOps.cmpf .ogt (x1 (ix2 (y 0) (0 : Fin 1))) _)
      (FloatOps.divf (x0 y) (FloatOps.maximumf (x1 (ix2 (y 0) (0 : Fin 1))) _)) (x2 y)
    = Scalar.select (FloatOps.cmpf .ogt (A1 (ix2 ((e y) 0) (0 : Fin 1))) _)
      (FloatOps.divf (A0 (e y)) (FloatOps.maximumf (A1 (ix2 ((e y) 0) (0 : Fin 1))) _)) (A2 (e y))
  rw [h0, h1, h2]

variable (m : (ℓ : Loc nD τ sig) → Buf (Elt F) ℓ) (ρ : Dev nD → PrngReg)

theorem hz : (![0, 0] : Fin 2 → Nat) = fun _ => 0 := funext fun a => by fin_cases a <;> rfl

/-- The printed index maps, decided over the grid: every window is at block row t, block column 0. -/
theorem idx_facts : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = 0
    ∧ win0_2.index t (0 : Fin 2) = win0_3.index t (0 : Fin 2)
    ∧ win0_2.index t (1 : Fin 2) = win0_3.index t (1 : Fin 2) :=
  (by decide +kernel : ∀ t : Fin grid0.N, _)

/-- Every block row is some point's. -/
theorem idx_onto : ∀ q0 : Fin 32, ∃ t : Fin cfg0.N, win0_3.index t = ![q0.val, 0] :=
  (by decide +kernel : ∀ q0 : Fin 32, ∃ t : Fin grid0.N, win0_3.index t = ![q0.val, 0])

/-- The sums' block at point t reads the sums where the output's block sits. -/
theorem read0 (c : Dev nD) (t : Fin cfg0.N) (y : S8192x128.Idx) :
    iblk m c 0 t y = V m c main_v39 (((cfg0.win 3).blk t).view.emb y) := by
  obtain ⟨e0, e1, e2, e3, e4, e5⟩ := idx_facts t
  show V m c main_v39 (((cfg0.win 0).blk t).view.emb y) = V m c main_v39 (((cfg0.win 3).blk t).view.emb y)
  refine congrArg _ (funext fun a => Fin.ext ?_)
  match a with
  | ⟨0, _⟩ => show win0_0.index t (0 : Fin 2) * 8192 + 1 * (y 0).val = win0_3.index t (0 : Fin 2) * 8192 + 1 * (y 0).val; omega
  | ⟨1, _⟩ => show win0_0.index t (1 : Fin 2) * 128 + 1 * (y 1).val = win0_3.index t (1 : Fin 2) * 128 + 1 * (y 1).val; omega

/-- The image's block at point t reads the image rows where the output's block sits. -/
theorem read2 (c : Dev nD) (t : Fin cfg0.N) (y : S8192x128.Idx) :
    iblk m c 2 t y = V m c main_v52 (((cfg0.win 3).blk t).view.emb y) := by
  obtain ⟨e0, e1, e2, e3, e4, e5⟩ := idx_facts t
  show V m c main_v52 (((cfg0.win 2).blk t).view.emb y) = V m c main_v52 (((cfg0.win 3).blk t).view.emb y)
  refine congrArg _ (funext fun a => Fin.ext ?_)
  match a with
  | ⟨0, _⟩ => show win0_2.index t (0 : Fin 2) * 8192 + 1 * (y 0).val = win0_3.index t (0 : Fin 2) * 8192 + 1 * (y 0).val; omega
  | ⟨1, _⟩ => show win0_2.index t (1 : Fin 2) * 128 + 1 * (y 1).val = win0_3.index t (1 : Fin 2) * 128 + 1 * (y 1).val; omega

/-- The count column's block at point t, read at a row of the block, is the count of the output block's row. -/
theorem read1 (c : Dev nD) (t : Fin cfg0.N) (y : S8192x128.Idx) :
    iblk m c 1 t (ix2 (y 0) (0 : Fin 1) : S8192x1.Idx)
      = V m c main_v49 (ix2 ((((cfg0.win 3).blk t).view.emb y) 0) (0 : Fin 1) : S262144x1.Idx) := by
  obtain ⟨e0, e1, e2, e3, e4, e5⟩ := idx_facts t
  show V m c main_v49 (((cfg0.win 1).blk t).view.emb (ix2 (y 0) (0 : Fin 1) : S8192x1.Idx)) = _
  refine congrArg _ (funext fun a => Fin.ext ?_)
  match a with
  | ⟨0, _⟩ => show win0_1.index t (0 : Fin 2) * 8192 + 1 * (y 0).val = win0_3.index t (0 : Fin 2) * 8192 + 1 * (y 0).val; omega
  | ⟨1, _⟩ => show win0_1.index t (1 : Fin 2) * 1 + 1 * 0 = 0; omega

/-- WHAT POINT t WRITES BACK is block t of the blend of the three arrays as the region finds them. -/
theorem flushed_eq (c : Dev nD) (t : Fin cfg0.N) :
    (dats m 0 c).flushed 3 t = ((cfg0.win 3).blk t).view.read (Elt F)
      (blendOn 262144 (V m c main_v39) (V m c main_v49) (V m c main_v52)) := by
  show (cfg0.win 3).cut (grid0.coords t) ((dats m 0 c).after 3 t) = _
  rw [after0_3]
  unfold out0_3
  rw [View.canon_unit_zero hz]
  simp only [View.ld_unit_zero (S := S8192x128) hz, View.ld_unit_zero (S := S8192x1) hz]
  rw [pay_eq]
  exact blend_block (V m c main_v39) (V m c main_v49) (V m c main_v52) (iblk m c 0 t) (iblk m c 1 t) (iblk m c 2 t)
    (((cfg0.win 3).blk t).view.emb) (read0 m c t) (read1 m c t) (read2 m c t)

/-- An index of the array is in point t's block iff each coordinate is in the block's range on its axis. -/
theorem mem_blk (t : Fin cfg0.N) (i : S262144x128.Idx) :
    i ∈ ((cfg0.win 3).blk t).view.set ↔ ∀ a : Fin 2, win0_3.index t a * S8192x128.size a ≤ (i a).val
      ∧ (i a).val < win0_3.index t a * S8192x128.size a + S8192x128.size a := by
  show i ∈ ((View.whole main_v53).slice (win0_3.rect t)).set ↔ _
  rw [View.set_slice_whole, Rect.mem_set_unit]
  exact Iff.rfl

/-- The blocks tile the array: row r is in the block of the point at block row r / 8192. -/
theorem cover (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  obtain ⟨t, ht⟩ := idx_onto ⟨(i 0).val / 8192, by omega⟩
  have q0 : win0_3.index t (0 : Fin 2) = (i 0).val / 8192 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

/-- THE OUTPUT ARRAY after the region: the blend of the three arrays the region reads. -/
theorem final (c : Dev nD) : (dats m 0 c).arrAt 3 cfg0.N
    = blendOn 262144 (V m c main_v39) (V m c main_v49) (V m c main_v52) :=
  (dats m 0 c).arrAt_eq_of_cover 3 _ (fun t _ => flushed_eq m c t) cover

end Cert.KernelIdeal.Blend

end
-- ==== Proof.KernelHost.lean ====
/-
  The kernel program's host lines around its region, and its run.

  Before the region the host computes the three arrays the region reads: the sums accumulated as rows, the counts as a
  column, the original image as rows (`Stages.rowSums`, `countCol`, `baseRows` of the arguments). After it, the
  region's output rows are read back as an image (`Stages.unrows`). With the region's output array the blend of the
  three (`Blend.final`), every weakly fair execution of the kernel program ends with its result at
      unrows (blend (rowSums x0 x2) (countCol x2) (baseRows x1))
  and the arguments unchanged.
-/
import proofs.«175001_j41420664602706_2_alg».proof.Proof.KernelArray
import proofs.«175001_j41420664602706_2_alg».proof.Proof.Stages
import Idealize.ShloMosaic.Lib.StableHlo.Run

set_option maxRecDepth 16384

noncomputable section

namespace Cert.KernelIdeal.Blend

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen
open Cert.Stages (blendOn)

variable {F : FTy → Type} [FloatOps F]
variable (m : (ℓ : Loc nD τ sig) → Buf (Elt F) ℓ) (ρ : Dev nD → PrngReg)

set_option maxHeartbeats 4000000 in
/-- The region finds the sums accumulated as rows. -/
theorem V_sums (c : Dev nD) : (V m c main_v39 : S262144x128.Idx → Elt F .f32)
    = Cert.Stages.rowSums (F := F) (m ((c.tc : Thread nD τ).loc main_arg0)) (m ((c.tc : Thread nD τ).loc main_arg2)) := by
  show StableHlo.after hostOps0 (fun b => m (c, b)) (Proc.devRef .tc main_v39) = _
  after_results_simp <;> rfl

set_option maxHeartbeats 4000000 in
/-- The region finds the counts as a column. -/
theorem V_counts (c : Dev nD) : (V m c main_v49 : S262144x1.Idx → Elt F .f32)
    = Cert.Stages.countCol (F := F) (m ((c.tc : Thread nD τ).loc main_arg2)) := by
  show StableHlo.after hostOps0 (fun b => m (c, b)) (Proc.devRef .tc main_v49) = _
  after_results_simp <;> rfl

set_option maxHeartbeats 4000000 in
/-- The region finds the original image as rows. -/
theorem V_base (c : Dev nD) : (V m c main_v52 : S262144x128.Idx → Elt F .f32)
    = Cert.Stages.baseRows (F := F) (m ((c.tc : Thread nD τ).loc main_arg1)) := by
  show StableHlo.after hostOps0 (fun b => m (c, b)) (Proc.devRef .tc main_v52) = _
  after_results_simp <;> rfl

set_option maxHeartbeats 4000000 in
/-- The lines after the region read its output rows back as an image. -/
theorem tail_result (c : Dev nD) :
    Pipeline.afterTail₀ cfgs (dats m) 0 (V0 m) [hostOps1] c main_v56
      = Cert.Stages.unrows (F := F) ((dats m 0 c).arrAt 3 cfg0.N) := by
  unfold Pipeline.afterTail₀
  show StableHlo.after hostOps1 _ (Proc.devRef .tc main_v56) = _
  after_results
  have hw : Pipeline.withArrays (cfgs 0).spec c (V0 m c) (fun w => (dats m 0 c).arrAt w (cfgs 0).N) (Proc.devRef .tc main_v53)
      = (dats m 0 c).arrAt 3 cfg0.N :=
    Pipeline.withArrays_arr spec0 launch0.win.arr_inj c _ _ 3
  rw [hw]
  rfl

/-- THE KERNEL PROGRAM'S RUN: every weakly fair execution terminates, nothing faulting, with the result at `kerOut` of
    the argument arrays and the arguments unchanged. -/
theorem run : θ_run defs (onTc (τ := τ) (main (F := F))) ⟨m, fun _ => 0, ρ⟩ (fun r => ∀ c : Dev nD,
      r.2.mem ((c.tc : Thread nD τ).loc main_v56) = Cert.Stages.kerOut (F := F) (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v56 (Pipeline.mem_restRefs_of main_v56 (by decide) (by decide))).trans
        ((tail_result m c).trans (by
          unfold Cert.Stages.kerOut
          rw [final m c, V_sums m c, V_counts m c, V_base m c])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.Blend

end
-- ==== Proof.LibScatterAddReindex.lean ====
/-
  The accumulating scatter on the extended reals, read at an index and carried across a re-indexing of the updates.

  At the ideal instance the host's scatter with an `add` body gives, at operand index `i`, the operand's element plus
  the sum of the update elements whose result index is `i` (start index plus window coordinate on every axis, when that
  is inside the operand). Two such scatters over ONE index array, with different layouts of operand and updates (for
  instance one the transpose of the other), agree at a pair of operand indices `i`, `i'` as soon as the operands agree
  there and a bijection of the update indices carries the updates landing on `i` onto the updates landing on `i'`, with
  equal update elements: the two sums are one sum, re-indexed.
-/
import Idealize.ShloMosaic.PureOps.Ideal
import Idealize.ShloMosaic.PureOps.Contract

namespace Cert.Lib

open Idealize.ShloMosaic

variable {w : Nat} {s si u : Shape}

/-- An update index lands at `i` exactly when its start plus window coordinate is, on every operand axis, the
    coordinate of `i`. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have hv : (d.start j idx a + (d.window j a : Int)).toNat = (i a).val := congrArg Fin.val e'
      rw [← hv]; exact (Int.toNat_of_nonneg (h a).1).symm
    · intro e
      congr 1
      funext a
      apply Fin.ext
      show (d.start j idx a + (d.window j a : Int)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- The host's accumulating scatter at the ideal instance is the exact sum. -/
theorem hostScatterAdd_ideal {φ : FTy} (d : ScatterDims s si u) (x : FVec Ideal s φ) (idx : IVec si w) (upd : FVec Ideal u φ) :
    Host.scatterAdd (F := Ideal) d x idx upd = Ideal.hostScatterAdd d x idx upd := rfl

/-- TWO LAYOUTS OF ONE ACCUMULATION. Operands that agree at `i` / `i'`, and a bijection `e` of the update indices under
    which landing on `i` is landing on `i'` and the update elements correspond: the two scatters agree at `i` / `i'`. -/
theorem hostScatterAdd_reindex {s' u' : Shape} (d : ScatterDims s si u) (d' : ScatterDims s' si u')
    (x : s.Idx → EReal) (x' : s'.Idx → EReal) (idx : IVec si w) (upd : u.Idx → EReal) (upd' : u'.Idx → EReal)
    (e : u.Idx ≃ u'.Idx) (i : s.Idx) (i' : s'.Idx)
    (hx : x i = x' i') (hupd : ∀ j, upd j = upd' (e j))
    (hres : ∀ j, d.resultIdx? j idx = some i ↔ d'.resultIdx? (e j) idx = some i') :
    Ideal.hostScatterAdd d x idx upd i = Ideal.hostScatterAdd d' x' idx upd' i' := by
  unfold Ideal.hostScatterAdd
  rw [hx]
  congr 1
  exact Finset.sum_equiv e
    (fun j => by simp only [Finset.mem_filter, Finset.mem_univ, true_and]; exact hres j) (fun j _ => hupd j)

end Cert.Lib
-- ==== Proof.LibScatterRowsCols.lean ====
/-
  Where an update lands, for the two layouts of a scatter along one axis of a matrix.

  ROWS: operand [N, C], M scalar indices given as an [M, 1] array, updates [M, C]: update (r, c) lands at (idx r, c).
  COLUMNS: operand [C, N], the same indices, updates [C, M]: update (c, r) lands at (c, idx r).
  In both the index word is read signed and is not clamped: an update whose index is negative or at least N is dropped.
  So the accumulating scatter by rows, read at (p, c), and by columns, read at (c, p), of updates that are transposes
  of each other onto operands that agree there, are the same number on the extended reals.
-/
import Idealize.ShloMosaic.Lib.ValueIdx
import proofs.«175001_j41420664602706_2_alg».proof.Proof.LibScatterAddReindex

namespace Cert.Lib

open Idealize.ShloMosaic Idealize.ShloMosaic.ValueIdx

variable {N M C w : Nat}

/-- The dimension numbers of a scatter of whole rows: the update's axis 1 is the window, the operand's axis 0 is
    inserted and is the one the index names, the index vector lies along axis 1 of the index array. -/
structure IsRowScatter (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- The dimension numbers of a scatter of whole columns: the update's axis 0 is the window, the operand's axis 1 is
    inserted and is the one the index names. -/
structure IsColScatter (d : ScatterDims ⟨2, ![C, N]⟩ ⟨2, ![M, 1]⟩ ⟨2, ![C, M]⟩) : Prop where
  uw : d.updateWindowDims = [0]
  iw : d.insertedWindowDims = [1]
  sd : d.scatterDimsToOperandDims = [1]
  iv : d.indexVectorDim = 1

private theorem mem00 : (0 : Fin 2) ∈ ([0] : List (Fin 2)) := by decide
private theorem mem10 : (1 : Fin 2) ∉ ([0] : List (Fin 2)) := by decide
private theorem mem11 : (1 : Fin 2) ∈ ([1] : List (Fin 2)) := by decide
private theorem mem01 : (0 : Fin 2) ∉ ([1] : List (Fin 2)) := by decide
private theorem kept0_1 : (1 : Fin 2) ∈ (List.finRange 2).filter (· ∉ ([0] : List (Fin 2))) := by decide
private theorem kept0_0 : (0 : Fin 2) ∉ (List.finRange 2).filter (· ∉ ([0] : List (Fin 2))) := by decide
private theorem kept1_0 : (0 : Fin 2) ∈ (List.finRange 2).filter (· ∉ ([1] : List (Fin 2))) := by decide
private theorem kept1_1 : (1 : Fin 2) ∉ (List.finRange 2).filter (· ∉ ([1] : List (Fin 2))) := by decide

/-- On the axis the index names, the window starts at the index word of the update's row, read signed. -/
theorem row_start_scat (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem00 ha

/-- On the other axis it starts at zero. -/
theorem row_start_win (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 1 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem10
  · rfl

/-- The window has no extent along the axis the index names. -/
theorem row_window_scat (d : ScatterDims ⟨2, ![N, C]⟩ ⟨2, ![M, 1]⟩ ⟨2, ![M, C]⟩) (hd : IsRowScatter d)
    (j : (⟨2, ![M, C]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept0_0
  · rfl

/-- Along the other axis the window coordinate is the update's. -/
theorem row_window_win (d : ScatterDims ⟨2, ![N, C]⟩ ⟨2, ![M, 1]⟩ ⟨2, ![M, C]⟩) (hd : IsRowScatter d)
    (j : (⟨2, ![M, C]⟩ : Shape).Idx) : d.window j 1 = (j 1).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept0_1 ha

/-- Update (r, c) of a row scatter lands at (idx r, c). -/
theorem row_resultIdx? (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) (i : (⟨2, ![N, C]⟩ : Shape).Idx) :
    d.resultIdx? j idx = some i ↔
      (idx (ix2 (j 0) (0 : Fin 1))).toInt = ((i 0).val : Int) ∧ (j 1).val = (i 1).val := by
  rw [resultIdx?_eq_some_iff]
  constructor
  · intro H
    have Ha := H 0
    have Hb := H 1
    rw [row_start_scat d hd, row_window_scat d hd] at Ha
    rw [row_start_win d hd, row_window_win d hd] at Hb
    exact ⟨by simpa using Ha, by exact_mod_cast (by simpa using Hb : ((j 1).val : Int) = ((i 1).val : Int))⟩
  · rintro ⟨Ha, Hb⟩ x
    have ea : d.start j idx 0 + (d.window j 0 : Int) = ((i 0).val : Int) := by
      rw [row_start_scat d hd, row_window_scat d hd, Ha]; simp
    have eb : d.start j idx 1 + (d.window j 1 : Int) = ((i 1).val : Int) := by
      rw [row_start_win d hd, row_window_win d hd, Hb]; simp
    match x with
    | ⟨0, _⟩ => exact ea
    | ⟨1, _⟩ => exact eb

/-- On the axis the index names, the window starts at the index word of the update's column, read signed. -/
theorem col_start_scat (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 1 = (idx (ix2 (j 1) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem11 ha

/-- On the other axis it starts at zero. -/
theorem col_start_win (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 0 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem01
  · rfl

/-- The window has no extent along the axis the index names. -/
theorem col_window_scat (d : ScatterDims ⟨2, ![C, N]⟩ ⟨2, ![M, 1]⟩ ⟨2, ![C, M]⟩) (hd : IsColScatter d)
    (j : (⟨2, ![C, M]⟩ : Shape).Idx) : d.window j 1 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept1_1
  · rfl

/-- Along the other axis the window coordinate is the update's. -/
theorem col_window_win (d : ScatterDims ⟨2, ![C, N]⟩ ⟨2, ![M, 1]⟩ ⟨2, ![C, M]⟩) (hd : IsColScatter d)
    (j : (⟨2, ![C, M]⟩ : Shape).Idx) : d.window j 0 = (j 0).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept1_0 ha

/-- Update (c, r) of a column scatter lands at (c, idx r). -/
theorem col_resultIdx? (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) (i : (⟨2, ![C, N]⟩ : Shape).Idx) :
    d.resultIdx? j idx = some i ↔
      (idx (ix2 (j 1) (0 : Fin 1))).toInt = ((i 1).val : Int) ∧ (j 0).val = (i 0).val := by
  rw [resultIdx?_eq_some_iff]
  constructor
  · intro H
    have Ha := H 1
    have Hb := H 0
    rw [col_start_scat d hd, col_window_scat d hd] at Ha
    rw [col_start_win d hd, col_window_win d hd] at Hb
    exact ⟨by simpa using Ha, by exact_mod_cast (by simpa using Hb : ((j 0).val : Int) = ((i 0).val : Int))⟩
  · rintro ⟨Ha, Hb⟩ x
    have ea : d.start j idx 1 + (d.window j 1 : Int) = ((i 1).val : Int) := by
      rw [col_start_scat d hd, col_window_scat d hd, Ha]; simp
    have eb : d.start j idx 0 + (d.window j 0 : Int) = ((i 0).val : Int) := by
      rw [col_start_win d hd, col_window_win d hd, Hb]; simp
    match x with
    | ⟨1, _⟩ => exact ea
    | ⟨0, _⟩ => exact eb

/-- The transposition of update indices, [A, B] ↔ [B, A]. -/
def swapIdx (A B : Nat) : (⟨2, ![A, B]⟩ : Shape).Idx ≃ (⟨2, ![B, A]⟩ : Shape).Idx where
  toFun j := ix2 (j 1) (j 0)
  invFun j := ix2 (j 1) (j 0)
  left_inv j := (eq_ix2 j).symm
  right_inv j := (eq_ix2 j).symm

/-- ROWS AGAINST COLUMNS: the accumulating scatter of the rows `upd` read at (p, c) is the accumulating scatter of the
    columns `upd'` read at (c, p), the updates transposes of each other and the operands equal there. -/
theorem scatterAdd_rows_eq_cols (d : ScatterDims ⟨2, ![N, C]⟩ ⟨2, ![M, 1]⟩ ⟨2, ![M, C]⟩) (hd : IsRowScatter d)
    (d' : ScatterDims ⟨2, ![C, N]⟩ ⟨2, ![M, 1]⟩ ⟨2, ![C, M]⟩) (hd' : IsColScatter d')
    (x : (⟨2, ![N, C]⟩ : Shape).Idx → EReal) (x' : (⟨2, ![C, N]⟩ : Shape).Idx → EReal) (idx : IVec ⟨2, ![M, 1]⟩ w)
    (upd : (⟨2, ![M, C]⟩ : Shape).Idx → EReal) (upd' : (⟨2, ![C, M]⟩ : Shape).Idx → EReal)
    (p : Fin N) (c : Fin C) (hx : x (ix2 p c) = x' (ix2 c p))
    (hupd : ∀ (r : Fin M) (c : Fin C), upd (ix2 r c) = upd' (ix2 c r)) :
    Ideal.hostScatterAdd d x idx upd (ix2 p c) = Ideal.hostScatterAdd d' x' idx upd' (ix2 c p) := by
  refine hostScatterAdd_reindex d d' x x' idx upd upd' (swapIdx M C) (ix2 p c) (ix2 c p) hx ?_ ?_
  · intro j
    rw [eq_ix2 j]
    exact hupd (j 0) (j 1)
  · intro j
    rw [row_resultIdx? d hd, col_resultIdx? d' hd']
    exact Iff.rfl

end Cert.Lib
-- ==== Proof.Bridge.lean ====
/-
  The two programs' results are one function of the arguments, on the extended reals.

  Fix a channel c and a pixel (h, w), and let p = 512 h + w. Reading the layout operations at an index:
    the kernel's result at (0, c, h, w) is its blend's row p, channel c:
        if count p > 0 then rowSums (p, c) / max (count p) 1 else image (0, c, h, w);
    the reference's result at (0, c, h, w) is its blend at (c, p):
        if count p > 0 then colSums (c, p) / max (count p) 1 else image (0, c, h, w).
  The counts are the same array. The sums differ only in layout: both add, over the block pixels r whose scatter index
  is p (an index outside [0, 262144) is dropped by both), the block value of channel c at r — the kernel having laid
  the block values out as rows (r, c), the reference as columns (c, r); with r = 256 n + 16 i + j both are
  x (n, c, i, j). A sum over a finite set does not depend on how its index set is laid out, so rowSums (p, c) =
  colSums (c, p), and the kernel's quotient and the host's quotient are the same function of the same two numbers.
  Nothing here needs the inputs finite.
-/
import proofs.«175001_j41420664602706_2_alg».proof.Proof.Stages
import proofs.«175001_j41420664602706_2_alg».proof.Proof.LibScatterRowsCols
import Idealize.ShloMosaic.Lib.Pipeline.Value
import Idealize.ShloMosaic.Lib.ValueIdx
import Idealize.ShloMosaic.PureOps.Ideal

noncomputable section

namespace Cert.Bridge

open Idealize.ShloMosaic Idealize.ShloMosaic.ValueIdx Cert.Stages

/-- The flat index of pixel (h, w). -/
abbrev pix (h w : Fin 512) : Fin 262144 := ⟨h.val * 512 + w.val, by have := h.isLt; have := w.isLt; omega⟩

section Layout
variable {F : FTy → Type} [FloatOps F]

/-- Rows read back as an image: the image at (0, c, h, w) is row 512 h + w, channel c. -/
theorem unrows_apply (y : FVec F Cert.KernelIdeal.S262144x128 .f32) (z : Fin 1) (c : Fin 128) (h w : Fin 512) :
    unrows y (ix4 z c h w) = y (ix2 (pix h w) c) := by
  have hz : z.val < 1 := z.isLt
  have hc := c.isLt; have hh := h.isLt; have hw := w.isLt
  unfold unrows
  refine (shapeCast_apply _ _ (ix4 z c h w) (ix3 c h w) ?_).trans ?_
  · rewrite [Shape.rowMajor_val_three, Shape.rowMajor_val_four]
    show (c.val * 512 + h.val) * 512 + w.val = ((z.val * 128 + c.val) * 512 + h.val) * 512 + w.val
    omega
  refine (transpose_apply _ _ _ (ix3 c h w) (ix3 h w c) (fun b => match b with
    | ⟨0, _⟩ => rfl
    | ⟨1, _⟩ => rfl
    | ⟨2, _⟩ => rfl)).trans ?_
  refine shapeCast_apply _ _ (ix3 h w c) (ix2 (pix h w) c) ?_
  rewrite [Shape.rowMajor_val_two, Shape.rowMajor_val_three]
  show (h.val * 512 + w.val) * 128 + c.val = (h.val * 512 + w.val) * 128 + c.val
  rfl

/-- The count column at row p is the count of p. -/
theorem countCol_apply (x2 : IVec Cert.ReferenceIdeal.S1024x2 32) (p : Fin 262144) :
    countCol (F := F) x2 (ix2 p (0 : Fin 1)) = counts (F := F) x2 (ix1 p) := by
  unfold countCol
  refine shapeCast_apply _ _ (ix2 p (0 : Fin 1)) (ix1 p) ?_
  rewrite [Shape.rowMajor_val_one, Shape.rowMajor_val_two]
  show p.val = p.val * 1 + 0
  omega

/-- The image as rows: row 512 h + w, channel c is the image at (0, c, h, w). -/
theorem baseRows_apply (x1 : FVec F Cert.KernelIdeal.S1x128x512x512 .f32) (z : Fin 1) (c : Fin 128) (h w : Fin 512) :
    baseRows x1 (ix2 (pix h w) c) = x1 (ix4 z c h w) := by
  have hz : z.val < 1 := z.isLt
  have hc := c.isLt; have hh := h.isLt; have hw := w.isLt
  unfold baseRows
  refine (shapeCast_apply _ _ (ix2 (pix h w) c) (ix3 h w c) ?_).trans ?_
  · rewrite [Shape.rowMajor_val_three, Shape.rowMajor_val_two]
    show (h.val * 512 + w.val) * 128 + c.val = (h.val * 512 + w.val) * 128 + c.val
    rfl
  refine (transpose_apply _ _ _ (ix3 h w c) (ix3 c h w) (fun b => match b with
    | ⟨0, _⟩ => rfl
    | ⟨1, _⟩ => rfl
    | ⟨2, _⟩ => rfl)).trans ?_
  refine shapeCast_apply x1 _ (ix3 c h w) (ix4 z c h w) ?_
  rewrite [Shape.rowMajor_val_four, Shape.rowMajor_val_three]
  show ((z.val * 128 + c.val) * 512 + h.val) * 512 + w.val = (c.val * 512 + h.val) * 512 + w.val
  omega

/-- The reference's result at (0, c, h, w) is its blend at (c, 512 h + w). -/
theorem refOut_apply (x0 : FVec F Cert.ReferenceIdeal.S1024x128x16x16 .f32) (x1 : FVec F Cert.ReferenceIdeal.S1x128x512x512 .f32)
    (x2 : IVec Cert.ReferenceIdeal.S1024x2 32) (z : Fin 1) (c : Fin 128) (h w : Fin 512) :
    refOut x0 x1 x2 (ix4 z c h w) = refBlend x0 x1 x2 (ix2 c (pix h w)) := by
  have hz : z.val < 1 := z.isLt
  have hc := c.isLt; have hh := h.isLt; have hw := w.isLt
  unfold refOut
  refine shapeCast_apply _ _ (ix4 z c h w) (ix2 c (pix h w)) ?_
  rewrite [Shape.rowMajor_val_two, Shape.rowMajor_val_four]
  show c.val * 262144 + (h.val * 512 + w.val) = ((z.val * 128 + c.val) * 512 + h.val) * 512 + w.val
  omega

/-- The reference's blend at (c, 512 h + w): the count of the pixel decides between the quotient of the column sum by
    the clamped count and the image at (0, c, h, w). -/
theorem refBlend_apply (x0 : FVec F Cert.ReferenceIdeal.S1024x128x16x16 .f32) (x1 : FVec F Cert.ReferenceIdeal.S1x128x512x512 .f32)
    (x2 : IVec Cert.ReferenceIdeal.S1024x2 32) (z : Fin 1) (c : Fin 128) (h w : Fin 512) :
    refBlend x0 x1 x2 (ix2 c (pix h w))
      = Scalar.select (FloatOps.cmpf .ogt (counts (F := F) x2 (ix1 (pix h w))) (FloatOps.ofBits .f32 0x00000000#32))
          (FloatOps.hostDivf (colSums x0 x2 (ix2 c (pix h w)))
            (FloatOps.maximumf (counts (F := F) x2 (ix1 (pix h w))) (FloatOps.ofBits .f32 0x3F800000#32)))
          (x1 (ix4 z c h w)) := by
  have hz : z.val < 1 := z.isLt
  have hc := c.isLt; have hh := h.isLt; have hw := w.isLt
  unfold refBlend
  have e1 : ∀ (v : IVec Cert.ReferenceIdeal.S262144 1),
      broadcastInDim Cert.ReferenceIdeal.S128x262144 ![1] Cert.ReferenceIdeal.Gen.bcast_S262144_S128x262144_1 v (ix2 c (pix h w))
        = v (ix1 (pix h w)) := fun v =>
    broadcastInDim_apply _ _ v (ix2 c (pix h w)) (ix1 (pix h w)) (fun a => match a with
      | ⟨0, _⟩ => by show (pix h w).val = if (262144 : Nat) = 1 then 0 else (pix h w).val; rw [if_neg (by decide)])
  have e2 : ∀ (v : FVec F Cert.ReferenceIdeal.S262144 .f32),
      broadcastInDim Cert.ReferenceIdeal.S128x262144 ![0, 1] Cert.ReferenceIdeal.Gen.bcast_S1x262144_S128x262144_0_1
        (broadcastInDim Cert.ReferenceIdeal.S1x262144 ![1] Cert.ReferenceIdeal.Gen.bcast_S262144_S1x262144_1 v) (ix2 c (pix h w))
        = v (ix1 (pix h w)) := fun v =>
    (broadcastInDim_apply _ _ _ (ix2 c (pix h w)) (ix2 (0 : Fin 1) (pix h w)) (fun a => match a with
      | ⟨0, _⟩ => by show (0 : Nat) = if (1 : Nat) = 1 then 0 else c.val; rw [if_pos rfl]
      | ⟨1, _⟩ => by show (pix h w).val = if (262144 : Nat) = 1 then 0 else (pix h w).val; rw [if_neg (by decide)])).trans
    (broadcastInDim_apply _ _ v (ix2 (0 : Fin 1) (pix h w)) (ix1 (pix h w)) (fun a => match a with
      | ⟨0, _⟩ => by show (pix h w).val = if (262144 : Nat) = 1 then 0 else (pix h w).val; rw [if_neg (by decide)]))
  have e3 : shapeCast Cert.ReferenceIdeal.S128x262144 x1 Cert.ReferenceIdeal.Gen.shapeCasts_S1x128x512x512_S128x262144 (ix2 c (pix h w))
      = x1 (ix4 z c h w) := by
    refine shapeCast_apply x1 _ (ix2 c (pix h w)) (ix4 z c h w) ?_
    rewrite [Shape.rowMajor_val_four, Shape.rowMajor_val_two]
    show ((z.val * 128 + c.val) * 512 + h.val) * 512 + w.val = c.val * 262144 + (h.val * 512 + w.val)
    omega
  show Scalar.select (broadcastInDim (s := Cert.ReferenceIdeal.S262144) Cert.ReferenceIdeal.S128x262144 ![1] Cert.ReferenceIdeal.Gen.bcast_S262144_S128x262144_1 _ (ix2 c (pix h w)))
      (FloatOps.hostDivf (colSums x0 x2 (ix2 c (pix h w)))
        (broadcastInDim (s := Cert.ReferenceIdeal.S1x262144) Cert.ReferenceIdeal.S128x262144 ![0, 1] Cert.ReferenceIdeal.Gen.bcast_S1x262144_S128x262144_0_1
          (broadcastInDim (s := Cert.ReferenceIdeal.S262144) Cert.ReferenceIdeal.S1x262144 ![1] Cert.ReferenceIdeal.Gen.bcast_S262144_S1x262144_1 _) (ix2 c (pix h w))))
      (shapeCast Cert.ReferenceIdeal.S128x262144 x1 Cert.ReferenceIdeal.Gen.shapeCasts_S1x128x512x512_S128x262144 (ix2 c (pix h w))) = _
  rw [e1, e2, e3]
  rfl

end Layout

/-! ## The sums -/

/-- The block values laid out as rows and as columns are transposes of each other: with r = 256 n + 16 i + j, both
    (r, c) and (c, r) hold x (n, c, i, j). -/
theorem rowVals_eq_colVals (x0 : FVec Ideal Cert.ReferenceIdeal.S1024x128x16x16 .f32) (r : Fin 262144) (c : Fin 128) :
    rowVals x0 (ix2 r c) = colVals x0 (ix2 c r) := by
  have hr := r.isLt; have hc := c.isLt
  have q0 : r.val / 256 < 1024 := by omega
  have q1 : r.val / 16 % 16 < 16 := by omega
  have q2 : r.val % 16 < 16 := by omega
  have hL : rowVals x0 (ix2 r c) = x0 (ix4 (⟨r.val / 256, q0⟩ : Fin 1024) c (⟨r.val / 16 % 16, q1⟩ : Fin 16) (⟨r.val % 16, q2⟩ : Fin 16)) := by
    unfold rowVals
    refine (shapeCast_apply _ _ (ix2 r c)
      (ix4 (⟨r.val / 256, q0⟩ : Fin 1024) (⟨r.val / 16 % 16, q1⟩ : Fin 16) (⟨r.val % 16, q2⟩ : Fin 16) c) ?_).trans ?_
    · rewrite [Shape.rowMajor_val_four, Shape.rowMajor_val_two]
      show ((r.val / 256 * 16 + r.val / 16 % 16) * 16 + r.val % 16) * 128 + c.val = r.val * 128 + c.val
      omega
    exact transpose_apply _ _ _ _ _ (fun b => match b with
      | ⟨0, _⟩ => rfl
      | ⟨1, _⟩ => rfl
      | ⟨2, _⟩ => rfl
      | ⟨3, _⟩ => rfl)
  have hR : colVals x0 (ix2 c r) = x0 (ix4 (⟨r.val / 256, q0⟩ : Fin 1024) c (⟨r.val / 16 % 16, q1⟩ : Fin 16) (⟨r.val % 16, q2⟩ : Fin 16)) := by
    unfold colVals
    refine (shapeCast_apply _ _ (ix2 c r)
      (ix4 c (⟨r.val / 256, q0⟩ : Fin 1024) (⟨r.val / 16 % 16, q1⟩ : Fin 16) (⟨r.val % 16, q2⟩ : Fin 16)) ?_).trans ?_
    · rewrite [Shape.rowMajor_val_four, Shape.rowMajor_val_two]
      show ((c.val * 1024 + r.val / 256) * 16 + r.val / 16 % 16) * 16 + r.val % 16 = c.val * 262144 + r.val
      omega
    exact transpose_apply _ _ _ _ _ (fun b => match b with
      | ⟨0, _⟩ => rfl
      | ⟨1, _⟩ => rfl
      | ⟨2, _⟩ => rfl
      | ⟨3, _⟩ => rfl)
  rw [hL, hR]

/-- THE SUMS AGREE: the row sums at (p, c) are the column sums at (c, p). -/
theorem rowSums_eq_colSums (x0 : FVec Ideal Cert.ReferenceIdeal.S1024x128x16x16 .f32) (x2 : IVec Cert.ReferenceIdeal.S1024x2 32)
    (p : Fin 262144) (c : Fin 128) :
    rowSums (F := Ideal) x0 x2 (ix2 p c) = colSums (F := Ideal) x0 x2 (ix2 c p) := by
  unfold rowSums colSums
  rw [Cert.Lib.hostScatterAdd_ideal, Cert.Lib.hostScatterAdd_ideal]
  exact Cert.Lib.scatterAdd_rows_eq_cols _ ⟨rfl, rfl, rfl, rfl⟩ _ ⟨rfl, rfl, rfl, rfl⟩ _ _ (norm x2) _ _ p c rfl
    (rowVals_eq_colVals x0)

/-! ## The results -/

/-- THE TWO RESULTS ARE ONE FUNCTION of the argument arrays, on the extended reals. -/
theorem kerOut_eq_refOut (x0 : FVec Ideal Cert.ReferenceIdeal.S1024x128x16x16 .f32)
    (x1 : FVec Ideal Cert.ReferenceIdeal.S1x128x512x512 .f32) (x2 : IVec Cert.ReferenceIdeal.S1024x2 32) :
    kerOut (F := Ideal) x0 x1 x2 = refOut (F := Ideal) x0 x1 x2 := by
  funext i
  obtain ⟨z, c, h, w, rfl⟩ : ∃ (z : Fin 1) (c : Fin 128) (h w : Fin 512), i = ix4 z c h w :=
    ⟨i 0, i 1, i 2, i 3, eq_ix4 i⟩
  unfold kerOut
  rw [unrows_apply, refOut_apply, refBlend_apply x0 x1 x2 z c h w]
  show Scalar.select (FloatOps.cmpf .ogt (countCol (F := Ideal) x2 (ix2 (pix h w) (0 : Fin 1))) _)
      (FloatOps.divf (rowSums (F := Ideal) x0 x2 (ix2 (pix h w) c))
        (FloatOps.maximumf (countCol (F := Ideal) x2 (ix2 (pix h w) (0 : Fin 1))) _))
      (baseRows x1 (ix2 (pix h w) c)) = _
  rw [countCol_apply, baseRows_apply x1 z c h w, rowSums_eq_colSums]
  rfl

end Cert.Bridge

end
-- ==== Proof.lean ====
/-
  Scatter-averaged blocks blended into an image: the kernel program against its jnp reference, on the extended reals.

  Both programs scatter 1024 blocks of 128 channels × 16 × 16 pixels into a 512 × 512 canvas at run-time corners, add
  the values that land on one pixel, count them, and return per channel and pixel the average where the count is
  positive and the original image elsewhere. The reference accumulates the sums as a [128, 262144] array (one column
  per pixel); the kernel program accumulates them on the host as a [262144, 128] array (one row per pixel), blends
  rows in a 32-point region of 8192 rows each, and lays the rows back out as an image.

  * The frames of the two kernel programs are the generated frame certificates; the reference's frame is its run
    (`RefRun.run`) with the result dropped. The ideal pass rewrote nothing, so `preserves` is `True`.
  * `algebraic`: the kernel program ends with its result at `Stages.kerOut` of its arguments (`Blend.run`: the
    region's output array is the blend of the three arrays it reads, `Blend.final`, between the host lines before
    and after it), the reference at `Stages.refOut` of its own (`RefRun.run`), and on arguments that agree the two
    are one function (`Bridge.kerOut_eq_refOut`): index by index both are
        if count p > 0 then (sum of the block values landing on p, channel c) / max (count p) 1 else image (c, p),
    the two sums being one sum over the block pixels whose index is p, whichever way the updates are laid out.
    No step uses that the inputs are finite.
-/
import proofs.«175001_j41420664602706_2_alg».proof.Defs
import proofs.«175001_j41420664602706_2_alg».proof.Proof.Gen.Kernel
import proofs.«175001_j41420664602706_2_alg».proof.Proof.Gen.Kernel.Skeleton
import proofs.«175001_j41420664602706_2_alg».proof.Proof.Gen.Kernel.Launch
import proofs.«175001_j41420664602706_2_alg».proof.Proof.Gen.Kernel.Points
import proofs.«175001_j41420664602706_2_alg».proof.Proof.Gen.Kernel.Frame
import proofs.«175001_j41420664602706_2_alg».proof.Proof.Gen.KernelIdeal
import proofs.«175001_j41420664602706_2_alg».proof.Proof.Gen.KernelIdeal.Skeleton
import proofs.«175001_j41420664602706_2_alg».proof.Proof.Gen.KernelIdeal.Launch
import proofs.«175001_j41420664602706_2_alg».proof.Proof.Gen.KernelIdeal.Points
import proofs.«175001_j41420664602706_2_alg».proof.Proof.Gen.KernelIdeal.Frame
import proofs.«175001_j41420664602706_2_alg».proof.Proof.Gen.ReferenceIdeal
import proofs.«175001_j41420664602706_2_alg».proof.Proof.Gen.Pre_finite_inputs
import proofs.«175001_j41420664602706_2_alg».proof.Proof.RefRun
import proofs.«175001_j41420664602706_2_alg».proof.Proof.KernelHost
import proofs.«175001_j41420664602706_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.RefRun.run (F := Ideal) m ρ)

/-- The ideal pass rewrote no operation. -/
theorem preserves : Cert.preserves_Kernel_KernelIdeal := trivial

/-- From memories that agree on the arguments both programs end with the result `Stages.kerOut` of the kernel
    program's arguments: the kernel program by its run, the reference by its run and `Bridge.kerOut_eq_refOut`. -/
theorem algebraic : Cert.algebraic_KernelIdeal_ReferenceIdeal := by
  intro m ρ m' ρ' _ hagree
  refine ⟨_, Cert.KernelIdeal.Blend.run (F := Ideal) m ρ, ?_⟩
  refine (θ_run Cert.ReferenceIdeal.defs _ _).mono (fun _ h c => ⟨(h c).1.trans ?_, (h c).2⟩)
    (Cert.RefRun.run (F := Ideal) m' ρ')
  rw [(hagree c).1, (hagree c).2.1, (hagree c).2.2]
  exact (Cert.Bridge.kerOut_eq_refOut _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
